-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x1280 : Shape := ⟨4, ![8, 64, 64, 1280]⟩
abbrev S3840x1280 : Shape := ⟨2, ![3840, 1280]⟩
abbrev S3840 : Shape := ⟨1, ![3840]⟩
abbrev S16x1280 : Shape := ⟨2, ![16, 1280]⟩
abbrev S1280x16 : Shape := ⟨2, ![1280, 16]⟩
abbrev S_ : Shape := ⟨0, ![]⟩

class Facts : Prop where
  bcast_S_S8x64x64x1280 : S_.BroadcastsInDim S8x64x64x1280 (![] : Fin 0 → Fin S8x64x64x1280.rank)
  reducesTo_S8x64x64x1280_S_d0_1_2_3 : S8x64x64x1280.ReducesTo [0, 1, 2, 3] S_
  h_S_ : 0 < S_.numel
  bcast_S_S3840x1280 : S_.BroadcastsInDim S3840x1280 (![] : Fin 0 → Fin S3840x1280.rank)
  reducesTo_S3840x1280_S_d0_1 : S3840x1280.ReducesTo [0, 1] S_
  bcast_S_S3840 : S_.BroadcastsInDim S3840 (![] : Fin 0 → Fin S3840.rank)
  reducesTo_S3840_S_d0 : S3840.ReducesTo [0] S_
  bcast_S_S16x1280 : S_.BroadcastsInDim S16x1280 (![] : Fin 0 → Fin S16x1280.rank)
  reducesTo_S16x1280_S_d0_1 : S16x1280.ReducesTo [0, 1] S_
  bcast_S_S1280x16 : S_.BroadcastsInDim S1280x16 (![] : Fin 0 → Fin S1280x16.rank)
  reducesTo_S1280x16_S_d0_1 : S1280x16.ReducesTo [0, 1] S_

variable [Facts]

def fn_part2 {F : FTy → Type} [FloatOps F] (main_arg7 : FVec F S16x1280 .f32) (main_arg8 : FVec F S1280x16 .f32) (main_v33 : IVec S_ 1) : IVec S_ 1 :=
  let main_v34 : FVec F S16x1280 .f32 := Host.absf main_arg7
  let main_cst_12 : FVec F S_ .f32 := constant S_ .f32 0x7F800000#32
  let main_v35 : FVec F S16x1280 .f32 := broadcastInDim S16x1280 ![] bcast_S_S16x1280 main_cst_12
  let main_v36 : IVec S16x1280 1 := cmpf .olt main_v34 main_v35
  let main_c_13 : IVec S_ 1 := constantI S_ 1 1#1
  let main_v37 : IVec S_ 1 := (fun x v => Host.reduce IntOp.andi x v reducesTo_S16x1280_S_d0_1 h_S_) main_v36 main_c_13
  let main_v38 : IVec S_ 1 := andi main_v33 main_v37
  let main_v39 : FVec F S1280x16 .f32 := Host.absf main_arg8
  let main_cst_14 : FVec F S_ .f32 := constant S_ .f32 0x7F800000#32
  let main_v40 : FVec F S1280x16 .f32 := broadcastInDim S1280x16 ![] bcast_S_S1280x16 main_cst_14
  let main_v41 : IVec S1280x16 1 := cmpf .olt main_v39 main_v40
  let main_c_15 : IVec S_ 1 := constantI S_ 1 1#1
  let main_v42 : IVec S_ 1 := (fun x v => Host.reduce IntOp.andi x v reducesTo_S1280x16_S_d0_1 h_S_) main_v41 main_c_15
  let main_v43 : IVec S_ 1 := andi main_v38 main_v42
  main_v43

def fn_part1 {F : FTy → Type} [FloatOps F] (main_arg4 : FVec F S1280x16 .f32) (main_arg5 : FVec F S16x1280 .f32) (main_arg6 : FVec F S1280x16 .f32) (main_arg7 : FVec F S16x1280 .f32) (main_arg8 : FVec F S1280x16 .f32) (main_v13 : IVec S_ 1) (main_v16 : IVec S16x1280 1) : IVec S_ 1 :=
  let main_c_5 : IVec S_ 1 := constantI S_ 1 1#1
  let main_v17 : IVec S_ 1 := (fun x v => Host.reduce IntOp.andi x v reducesTo_S16x1280_S_d0_1 h_S_) main_v16 main_c_5
  let main_v18 : IVec S_ 1 := andi main_v13 main_v17
  let main_v19 : FVec F S1280x16 .f32 := Host.absf main_arg4
  let main_cst_6 : FVec F S_ .f32 := constant S_ .f32 0x7F800000#32
  let main_v20 : FVec F S1280x16 .f32 := broadcastInDim S1280x16 ![] bcast_S_S1280x16 main_cst_6
  let main_v21 : IVec S1280x16 1 := cmpf .olt main_v19 main_v20
  let main_c_7 : IVec S_ 1 := constantI S_ 1 1#1
  let main_v22 : IVec S_ 1 := (fun x v => Host.reduce IntOp.andi x v reducesTo_S1280x16_S_d0_1 h_S_) main_v21 main_c_7
  let main_v23 : IVec S_ 1 := andi main_v18 main_v22
  let main_v24 : FVec F S16x1280 .f32 := Host.absf main_arg5
  let main_cst_8 : FVec F S_ .f32 := constant S_ .f32 0x7F800000#32
  let main_v25 : FVec F S16x1280 .f32 := broadcastInDim S16x1280 ![] bcast_S_S16x1280 main_cst_8
  let main_v26 : IVec S16x1280 1 := cmpf .olt main_v24 main_v25
  let main_c_9 : IVec S_ 1 := constantI S_ 1 1#1
  let main_v27 : IVec S_ 1 := (fun x v => Host.reduce IntOp.andi x v reducesTo_S16x1280_S_d0_1 h_S_) main_v26 main_c_9
  let main_v28 : IVec S_ 1 := andi main_v23 main_v27
  let main_v29 : FVec F S1280x16 .f32 := Host.absf main_arg6
  let main_cst_10 : FVec F S_ .f32 := constant S_ .f32 0x7F800000#32
  let main_v30 : FVec F S1280x16 .f32 := broadcastInDim S1280x16 ![] bcast_S_S1280x16 main_cst_10
  let main_v31 : IVec S1280x16 1 := cmpf .olt main_v29 main_v30
  let main_c_11 : IVec S_ 1 := constantI S_ 1 1#1
  let main_v32 : IVec S_ 1 := (fun x v => Host.reduce IntOp.andi x v reducesTo_S1280x16_S_d0_1 h_S_) main_v31 main_c_11
  let main_v33 : IVec S_ 1 := andi main_v28 main_v32
  fn_part2 (F := F) main_arg7 main_arg8 main_v33

def fn {F : FTy → Type} [FloatOps F] (main_arg0 : FVec F S8x64x64x1280 .f32) (main_arg1 : FVec F S3840x1280 .f32) (main_arg2 : FVec F S3840 .f32) (main_arg3 : FVec F S16x1280 .f32) (main_arg4 : FVec F S1280x16 .f32) (main_arg5 : FVec F S16x1280 .f32) (main_arg6 : FVec F S1280x16 .f32) (main_arg7 : FVec F S16x1280 .f32) (main_arg8 : FVec F S1280x16 .f32) : IVec S_ 1 :=
  let main_v0 : FVec F S8x64x64x1280 .f32 := Host.absf main_arg0
  let main_cst : FVec F S_ .f32 := constant S_ .f32 0x7F800000#32
  let main_v1 : FVec F S8x64x64x1280 .f32 := broadcastInDim S8x64x64x1280 ![] bcast_S_S8x64x64x1280 main_cst
  let main_v2 : IVec S8x64x64x1280 1 := cmpf .olt main_v0 main_v1
  let main_c : IVec S_ 1 := constantI S_ 1 1#1
  let main_v3 : IVec S_ 1 := (fun x v => Host.reduce IntOp.andi x v reducesTo_S8x64x64x1280_S_d0_1_2_3 h_S_) main_v2 main_c
  let main_v4 : FVec F S3840x1280 .f32 := Host.absf main_arg1
  let main_cst_0 : FVec F S_ .f32 := constant S_ .f32 0x7F800000#32
  let main_v5 : FVec F S3840x1280 .f32 := broadcastInDim S3840x1280 ![] bcast_S_S3840x1280 main_cst_0
  let main_v6 : IVec S3840x1280 1 := cmpf .olt main_v4 main_v5
  let main_c_1 : IVec S_ 1 := constantI S_ 1 1#1
  let main_v7 : IVec S_ 1 := (fun x v => Host.reduce IntOp.andi x v reducesTo_S3840x1280_S_d0_1 h_S_) main_v6 main_c_1
  let main_v8 : IVec S_ 1 := andi main_v3 main_v7
  let main_v9 : FVec F S3840 .f32 := Host.absf main_arg2
  let main_cst_2 : FVec F S_ .f32 := constant S_ .f32 0x7F800000#32
  let main_v10 : FVec F S3840 .f32 := broadcastInDim S3840 ![] bcast_S_S3840 main_cst_2
  let main_v11 : IVec S3840 1 := cmpf .olt main_v9 main_v10
  let main_c_3 : IVec S_ 1 := constantI S_ 1 1#1
  let main_v12 : IVec S_ 1 := (fun x v => Host.reduce IntOp.andi x v reducesTo_S3840_S_d0 h_S_) main_v11 main_c_3
  let main_v13 : IVec S_ 1 := andi main_v8 main_v12
  let main_v14 : FVec F S16x1280 .f32 := Host.absf main_arg3
  let main_cst_4 : FVec F S_ .f32 := constant S_ .f32 0x7F800000#32
  let main_v15 : FVec F S16x1280 .f32 := broadcastInDim S16x1280 ![] bcast_S_S16x1280 main_cst_4
  let main_v16 : IVec S16x1280 1 := cmpf .olt main_v14 main_v15
  fn_part1 (F := F) main_arg4 main_arg5 main_arg6 main_arg7 main_arg8 main_v13 main_v16
-- ==== Kernel.lean ====
abbrev S8x64x64x1280 : Shape := ⟨4, ![8, 64, 64, 1280]⟩
abbrev S3840x1280 : Shape := ⟨2, ![3840, 1280]⟩
abbrev S3840 : Shape := ⟨1, ![3840]⟩
abbrev S16x1280 : Shape := ⟨2, ![16, 1280]⟩
abbrev S1280x16 : Shape := ⟨2, ![1280, 16]⟩
abbrev S32768x1280 : Shape := ⟨2, ![32768, 1280]⟩
abbrev S1280x3840 : Shape := ⟨2, ![1280, 3840]⟩
abbrev S1x3840 : Shape := ⟨2, ![1, 3840]⟩
abbrev S1280x48 : Shape := ⟨2, ![1280, 48]⟩
abbrev S_ : Shape := ⟨0, ![]⟩
abbrev S16x3840 : Shape := ⟨2, ![16, 3840]⟩
abbrev S48x3840 : Shape := ⟨2, ![48, 3840]⟩
abbrev S32768x3840 : Shape := ⟨2, ![32768, 3840]⟩
abbrev S256x1280 : Shape := ⟨2, ![256, 1280]⟩
abbrev S256x3840 : Shape := ⟨2, ![256, 3840]⟩
abbrev S256x48 : Shape := ⟨2, ![256, 48]⟩
abbrev S8x64x64x3840 : Shape := ⟨4, ![8, 64, 64, 3840]⟩

abbrev nBuf : Space → Nat
  | .hbm => 34
  | .vmem => 8
  | .smem => 0
  | _ => 0

abbrev bufTy : (tb : Table) → Fin (tcTables nBuf tb) → BufTy
  | .hbm, ⟨0, _⟩ => ⟨S8x64x64x1280, .f32⟩
  | .hbm, ⟨1, _⟩ => ⟨S3840x1280, .f32⟩
  | .hbm, ⟨2, _⟩ => ⟨S3840, .f32⟩
  | .hbm, ⟨3, _⟩ => ⟨S16x1280, .f32⟩
  | .hbm, ⟨4, _⟩ => ⟨S1280x16, .f32⟩
  | .hbm, ⟨5, _⟩ => ⟨S16x1280, .f32⟩
  | .hbm, ⟨6, _⟩ => ⟨S1280x16, .f32⟩
  | .hbm, ⟨7, _⟩ => ⟨S16x1280, .f32⟩
  | .hbm, ⟨8, _⟩ => ⟨S1280x16, .f32⟩
  | .hbm, ⟨9, _⟩ => ⟨S32768x1280, .f32⟩
  | .hbm, ⟨10, _⟩ => ⟨S1280x3840, .f32⟩
  | .hbm, ⟨11, _⟩ => ⟨S1280x3840, .bf16⟩
  | .hbm, ⟨12, _⟩ => ⟨S1x3840, .f32⟩
  | .hbm, ⟨13, _⟩ => ⟨S1280x16, .f32⟩
  | .hbm, ⟨14, _⟩ => ⟨S1280x16, .bf16⟩
  | .hbm, ⟨15, _⟩ => ⟨S1280x16, .f32⟩
  | .hbm, ⟨16, _⟩ => ⟨S1280x16, .bf16⟩
  | .hbm, ⟨17, _⟩ => ⟨S1280x16, .f32⟩
  | .hbm, ⟨18, _⟩ => ⟨S1280x16, .bf16⟩
  | .hbm, ⟨19, _⟩ => ⟨S16x1280, .f32⟩
  | .hbm, ⟨20, _⟩ => ⟨S16x1280, .bf16⟩
  | .hbm, ⟨21, _⟩ => ⟨S16x1280, .f32⟩
  | .hbm, ⟨22, _⟩ => ⟨S16x1280, .bf16⟩
  | .hbm, ⟨23, _⟩ => ⟨S16x1280, .f32⟩
  | .hbm, ⟨24, _⟩ => ⟨S16x1280, .bf16⟩
  | .hbm, ⟨25, _⟩ => ⟨S1280x48, .bf16⟩
  | .hbm, ⟨26, _⟩ => ⟨S_, .bf16⟩
  | .hbm, ⟨27, _⟩ => ⟨S16x1280, .bf16⟩
  | .hbm, ⟨28, _⟩ => ⟨S16x3840, .bf16⟩
  | .hbm, ⟨29, _⟩ => ⟨S16x3840, .bf16⟩
  | .hbm, ⟨30, _⟩ => ⟨S16x3840, .bf16⟩
  | .hbm, ⟨31, _⟩ => ⟨S48x3840, .bf16⟩
  | .hbm, ⟨32, _⟩ => ⟨S32768x3840, .f32⟩
  | .hbm, ⟨33, _⟩ => ⟨S8x64x64x3840, .f32⟩
  | .local _ .vmem, ⟨0, _⟩ => ⟨S256x1280, .f32⟩
  | .local _ .vmem, ⟨1, _⟩ => ⟨S256x1280, .f32⟩
  | .local _ .vmem, ⟨2, _⟩ => ⟨S1280x3840, .bf16⟩
  | .local _ .vmem, ⟨3, _⟩ => ⟨S1x3840, .f32⟩
  | .local _ .vmem, ⟨4, _⟩ => ⟨S1280x48, .bf16⟩
  | .local _ .vmem, ⟨5, _⟩ => ⟨S48x3840, .bf16⟩
  | .local _ .vmem, ⟨6, _⟩ => ⟨S256x3840, .f32⟩
  | .local _ .vmem, ⟨7, _⟩ => ⟨S256x3840, .f32⟩
  | _, _ => ⟨S8x64x64x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3840 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x48 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x64x64x1280_S32768x1280 : S8x64x64x1280.ShapeCasts S32768x1280
  transposes_S3840x1280_S1280x3840_1_0 : S3840x1280.Transposes [1, 0] S1280x3840
  bitsLt_bf16_f32 : FTy.bits .bf16 < FTy.bits .f32
  shapeCasts_S3840_S1x3840 : S3840.ShapeCasts S1x3840
  transposes_S16x1280_S1280x16_1_0 : S16x1280.Transposes [1, 0] S1280x16
  transposes_S1280x16_S16x1280_1_0 : S1280x16.Transposes [1, 0] S16x1280
  concatenates_S1280x16_S1280x16_S1280x16_S1280x48_d1 : Shape.Concatenates [S1280x16, S1280x16, S1280x16] S1280x48 1
  bcast_S_S16x1280 : S_.BroadcastsInDim S16x1280 (![] : Fin 0 → Fin S16x1280.rank)
  concatenates_S16x1280_S16x1280_S16x1280_S16x3840_d1 : Shape.Concatenates [S16x1280, S16x1280, S16x1280] S16x3840 1
  concatenates_S16x3840_S16x3840_S16x3840_S48x3840_d0 : Shape.Concatenates [S16x3840, S16x3840, S16x3840] S48x3840 0
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  inb_S1280x3840_S1280x3840_0_0 : ∀ a, (![0, 0] : Fin 2 → Nat) a + S1280x3840.size a ≤ S1280x3840.size a
  h_S1280x3840 : 0 < S1280x3840.numel
  shapeCasts_S1280x3840_S1280x3840 : S1280x3840.ShapeCasts S1280x3840
  inb_S1x3840_S1x3840_0_0 : ∀ a, (![0, 0] : Fin 2 → Nat) a + S1x3840.size a ≤ S1x3840.size a
  h_S1x3840 : 0 < S1x3840.numel
  shapeCasts_S1x3840_S1x3840 : S1x3840.ShapeCasts S1x3840
  broadcasts_S1x3840_S256x3840 : S1x3840.Broadcasts S256x3840
  inb_S1280x48_S1280x48_0_0 : ∀ a, (![0, 0] : Fin 2 → Nat) a + S1280x48.size a ≤ S1280x48.size a
  h_S1280x48 : 0 < S1280x48.numel
  shapeCasts_S1280x48_S1280x48 : S1280x48.ShapeCasts S1280x48
  inb_S48x3840_S48x3840_0_0 : ∀ a, (![0, 0] : Fin 2 → Nat) a + S48x3840.size a ≤ S48x3840.size a
  h_S48x3840 : 0 < S48x3840.numel
  shapeCasts_S48x3840_S48x3840 : S48x3840.ShapeCasts S48x3840
  inb_S256x3840_S256x3840_0_0 : ∀ a, (![0, 0] : Fin 2 → Nat) a + S256x3840.size a ≤ S256x3840.size a
  h_S256x3840 : 0 < S256x3840.numel
  shapeCasts_S32768x3840_S8x64x64x3840 : S32768x3840.ShapeCasts S8x64x64x3840
  dot_S256x1280_S1280x3840_S256x3840_1_0_0_1_n_n_wf : DotDims.WF S256x1280 S1280x3840 S256x3840 [1] [0] [0] [1] [] []
  dot_S256x1280_S1280x48_S256x48_1_0_0_1_n_n_wf : DotDims.WF S256x1280 S1280x48 S256x48 [1] [0] [0] [1] [] []
  dot_S256x48_S48x3840_S256x3840_1_0_0_1_n_n_wf : DotDims.WF S256x48 S48x3840 S256x3840 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1280.size a ≤ S32768x1280.size a
  hwx0_0 : ∀ i : grid0.Coords, EltTy.bits .f32 = 32 ∨ (Rect.block (s := S32768x1280) S256x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x3840.size a ≤ S1280x3840.size a
  hwx0_1 : ∀ i : grid0.Coords, EltTy.bits .bf16 = 32 ∨ (Rect.block (s := S1280x3840) S1280x3840.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3840.size a ≤ S1x3840.size a
  hwx0_2 : ∀ i : grid0.Coords, EltTy.bits .f32 = 32 ∨ (Rect.block (s := S1x3840) S1x3840.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1280x48.size a ≤ S1280x48.size a
  hwx0_3 : ∀ i : grid0.Coords, EltTy.bits .bf16 = 32 ∨ (Rect.block (s := S1280x48) S1280x48.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x3840.size a ≤ S48x3840.size a
  hwx0_4 : ∀ i : grid0.Coords, EltTy.bits .bf16 = 32 ∨ (Rect.block (s := S48x3840) S48x3840.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x3840.size a ≤ S32768x3840.size a
  hwx0_5 : ∀ i : grid0.Coords, EltTy.bits .f32 = 32 ∨ (Rect.block (s := S32768x3840) S256x3840.size (cc0_transform_5 i) (hinb0_5 i)).WholeWords (EltTy.packing .f32)

variable [Facts₀]

def dot_S256x1280_S1280x3840_S256x3840_1_0_0_1_n_n : DotDims S256x1280 S1280x3840 S256x3840 where
  lhsContracting := [1]
  rhsContracting := [0]
  lhsNonContracting := [0]
  rhsNonContracting := [1]
  lhsBatch := []
  rhsBatch := []
  wf := dot_S256x1280_S1280x3840_S256x3840_1_0_0_1_n_n_wf
def dot_S256x1280_S1280x48_S256x48_1_0_0_1_n_n : DotDims S256x1280 S1280x48 S256x48 where
  lhsContracting := [1]
  rhsContracting := [0]
  lhsNonContracting := [0]
  rhsNonContracting := [1]
  lhsBatch := []
  rhsBatch := []
  wf := dot_S256x1280_S1280x48_S256x48_1_0_0_1_n_n_wf
def dot_S256x48_S48x3840_S256x3840_1_0_0_1_n_n : DotDims S256x48 S48x3840 S256x3840 where
  lhsContracting := [1]
  rhsContracting := [0]
  lhsNonContracting := [0]
  rhsNonContracting := [1]
  lhsBatch := []
  rhsBatch := []
  wf := dot_S256x48_S48x3840_S256x3840_1_0_0_1_n_n_wf

abbrev win0_0 : Pipeline.Window sig grid0 :=
  Pipeline.Window.ofSpec (Memref.whole main_v0) S256x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x3840.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3840.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1280x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S48x3840.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S256x3840.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x64x64x1280 : Shape := ⟨4, ![8, 64, 64, 1280]⟩
abbrev S3840x1280 : Shape := ⟨2, ![3840, 1280]⟩
abbrev S3840 : Shape := ⟨1, ![3840]⟩
abbrev S16x1280 : Shape := ⟨2, ![16, 1280]⟩
abbrev S1280x16 : Shape := ⟨2, ![1280, 16]⟩
abbrev S8x64x64x3840 : Shape := ⟨4, ![8, 64, 64, 3840]⟩
abbrev S1x1x1x3840 : Shape := ⟨4, ![1, 1, 1, 3840]⟩
abbrev S8x64x64x16 : Shape := ⟨4, ![8, 64, 64, 16]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8x64x64x1280, .f32⟩
  | .hbm, ⟨1, _⟩ => ⟨S3840x1280, .f32⟩
  | .hbm, ⟨2, _⟩ => ⟨S3840, .f32⟩
  | .hbm, ⟨3, _⟩ => ⟨S16x1280, .f32⟩
  | .hbm, ⟨4, _⟩ => ⟨S1280x16, .f32⟩
  | .hbm, ⟨5, _⟩ => ⟨S16x1280, .f32⟩
  | .hbm, ⟨6, _⟩ => ⟨S1280x16, .f32⟩
  | .hbm, ⟨7, _⟩ => ⟨S16x1280, .f32⟩
  | .hbm, ⟨8, _⟩ => ⟨S1280x16, .f32⟩
  | .hbm, ⟨9, _⟩ => ⟨S8x64x64x3840, .f32⟩
  | .hbm, ⟨10, _⟩ => ⟨S1x1x1x3840, .f32⟩
  | .hbm, ⟨11, _⟩ => ⟨S8x64x64x3840, .f32⟩
  | .hbm, ⟨12, _⟩ => ⟨S8x64x64x3840, .f32⟩
  | .hbm, ⟨13, _⟩ => ⟨S8x64x64x1280, .f32⟩
  | .hbm, ⟨14, _⟩ => ⟨S8x64x64x16, .f32⟩
  | .hbm, ⟨15, _⟩ => ⟨S8x64x64x1280, .f32⟩
  | .hbm, ⟨16, _⟩ => ⟨S_, .f32⟩
  | .hbm, ⟨17, _⟩ => ⟨S8x64x64x1280, .f32⟩
  | .hbm, ⟨18, _⟩ => ⟨S8x64x64x1280, .f32⟩
  | .hbm, ⟨19, _⟩ => ⟨S8x64x64x1280, .f32⟩
  | .hbm, ⟨20, _⟩ => ⟨S8x64x64x1280, .f32⟩
  | .hbm, ⟨21, _⟩ => ⟨S8x64x64x16, .f32⟩
  | .hbm, ⟨22, _⟩ => ⟨S8x64x64x1280, .f32⟩
  | .hbm, ⟨23, _⟩ => ⟨S_, .f32⟩
  | .hbm, ⟨24, _⟩ => ⟨S8x64x64x1280, .f32⟩
  | .hbm, ⟨25, _⟩ => ⟨S8x64x64x1280, .f32⟩
  | .hbm, ⟨26, _⟩ => ⟨S8x64x64x1280, .f32⟩
  | .hbm, ⟨27, _⟩ => ⟨S8x64x64x1280, .f32⟩
  | .hbm, ⟨28, _⟩ => ⟨S8x64x64x16, .f32⟩
  | .hbm, ⟨29, _⟩ => ⟨S8x64x64x1280, .f32⟩
  | .hbm, ⟨30, _⟩ => ⟨S_, .f32⟩
  | .hbm, ⟨31, _⟩ => ⟨S8x64x64x1280, .f32⟩
  | .hbm, ⟨32, _⟩ => ⟨S8x64x64x1280, .f32⟩
  | .hbm, ⟨33, _⟩ => ⟨S8x64x64x1280, .f32⟩
  | .hbm, ⟨34, _⟩ => ⟨S8x64x64x3840, .f32⟩
  | _, _ => ⟨S8x64x64x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S3840_S1x1x1x3840_3 : S3840.BroadcastsInDim S1x1x1x3840 (![3] : Fin 1 → Fin S1x1x1x3840.rank)
  bcast_S1x1x1x3840_S8x64x64x3840_0_1_2_3 : S1x1x1x3840.BroadcastsInDim S8x64x64x3840 (![0, 1, 2, 3] : Fin 4 → Fin S8x64x64x3840.rank)
  slices_S8x64x64x3840_S8x64x64x1280_0_0_0_0 : S8x64x64x3840.Slices ![0, 0, 0, 0] S8x64x64x1280
  bcast_S_S8x64x64x1280 : S_.BroadcastsInDim S8x64x64x1280 (![] : Fin 0 → Fin S8x64x64x1280.rank)
  slices_S8x64x64x3840_S8x64x64x1280_0_0_0_1280 : S8x64x64x3840.Slices ![0, 0, 0, 1280] S8x64x64x1280
  slices_S8x64x64x3840_S8x64x64x1280_0_0_0_2560 : S8x64x64x3840.Slices ![0, 0, 0, 2560] S8x64x64x1280
  concatenates_S8x64x64x1280_S8x64x64x1280_S8x64x64x1280_S8x64x64x3840_d3 : Shape.Concatenates [S8x64x64x1280, S8x64x64x1280, S8x64x64x1280] S8x64x64x3840 3
  dot_S8x64x64x1280_S3840x1280_S8x64x64x3840_3_1_012_0_n_n_wf : DotDims.WF S8x64x64x1280 S3840x1280 S8x64x64x3840 [3] [1] [0, 1, 2] [0] [] []
  dot_S8x64x64x1280_S16x1280_S8x64x64x16_3_1_012_0_n_n_wf : DotDims.WF S8x64x64x1280 S16x1280 S8x64x64x16 [3] [1] [0, 1, 2] [0] [] []
  dot_S8x64x64x16_S1280x16_S8x64x64x1280_3_1_012_0_n_n_wf : DotDims.WF S8x64x64x16 S1280x16 S8x64x64x1280 [3] [1] [0, 1, 2] [0] [] []

variable [Facts₀]

def dot_S8x64x64x1280_S3840x1280_S8x64x64x3840_3_1_012_0_n_n : DotDims S8x64x64x1280 S3840x1280 S8x64x64x3840 where
  lhsContracting := [3]
  rhsContracting := [1]
  lhsNonContracting := [0, 1, 2]
  rhsNonContracting := [0]
  lhsBatch := []
  rhsBatch := []
  wf := dot_S8x64x64x1280_S3840x1280_S8x64x64x3840_3_1_012_0_n_n_wf
def dot_S8x64x64x1280_S16x1280_S8x64x64x16_3_1_012_0_n_n : DotDims S8x64x64x1280 S16x1280 S8x64x64x16 where
  lhsContracting := [3]
  rhsContracting := [1]
  lhsNonContracting := [0, 1, 2]
  rhsNonContracting := [0]
  lhsBatch := []
  rhsBatch := []
  wf := dot_S8x64x64x1280_S16x1280_S8x64x64x16_3_1_012_0_n_n_wf
def dot_S8x64x64x16_S1280x16_S8x64x64x1280_3_1_012_0_n_n : DotDims S8x64x64x16 S1280x16 S8x64x64x1280 where
  lhsContracting := [3]
  rhsContracting := [1]
  lhsNonContracting := [0, 1, 2]
  rhsNonContracting := [0]
  lhsBatch := []
  rhsBatch := []
  wf := dot_S8x64x64x16_S1280x16_S8x64x64x1280_3_1_012_0_n_n_wf

class Facts : Prop extends Facts₀ where

variable [Facts]
-- ==== Proof.KernelFrame.lean ====
/-
  The frame of `Kernel`: @main is a stretch of host operations (reshapes, transposes, format changes and five
  concatenations that lay the three low-rank factors side by side), ONE pipelined region over 128 row tiles, and a
  final reshape. Per tile the body reads a 256 x 1280 block of rows and the four weight-like operands whole, and writes
  one 256 x 3840 block of the result. This module says what each staging buffer holds after the body at every tile
  (the inputs' blocks unchanged, the output block the body's one value of them), runs the body once against whole
  buffers, and from that obtains the run of @main: it ends, nothing faults, every argument array is as launched, and
  every array the region stages is named. It is stated for any float instance.
-/
import proofs.«127558_j25013889532113_2_alg».proof.Proof.Gen.Kernel.Launch
import proofs.«127558_j25013889532113_2_alg».proof.Proof.Gen.Kernel.Skeleton
import proofs.«127558_j25013889532113_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What the buffers of core `c` hold when the region is entered: the launch contents carried through the host
    operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only buffers outside the region's scope, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result only, which is none of the six arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- Every host operation writes its own result buffer, and no result buffer is an argument: decided reference by
    reference. -/
local macro "no_op_writes_it" : tactic => `(tactic| (
  simp only [hostOps0, hostOps1, List.flatten_cons, List.flatten_nil, List.append_nil, List.cons_append,
    List.nil_append, List.Forall, StableHlo.nullary_writes, StableHlo.unary_writes, StableHlo.nary_writes,
    StableHlo.reshape_writes, Finset.mem_singleton]
  repeat' apply And.intro
  all_goals exact StableHlo.devRef_ne_of_ne (by decide)))

/-- Argument 0 reaches the region as launched, -/
theorem V_main_arg0 (c : Dev nD) : V m c main_arg0 = m ((c : Thread nD τ).loc main_arg0) :=
  StableHlo.after_of_forall_not_mem (b := Proc.devRef .tc main_arg0) _ _ (List.forall_iff_forall_mem.mp (by no_op_writes_it))
/-- and ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by no_op_writes_it)),
    Pipeline.withArrays_of_ne _ c (V0 m c) _ main_arg0 (by exact (by decide : ∀ w, Pipeline.arrRef spec0 w ≠ main_arg0))]
  exact V_main_arg0 m c

/-- Argument 1 reaches the region as launched, -/
theorem V_main_arg1 (c : Dev nD) : V m c main_arg1 = m ((c : Thread nD τ).loc main_arg1) :=
  StableHlo.after_of_forall_not_mem (b := Proc.devRef .tc main_arg1) _ _ (List.forall_iff_forall_mem.mp (by no_op_writes_it))
/-- and ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by no_op_writes_it)),
    Pipeline.withArrays_of_ne _ c (V0 m c) _ main_arg1 (by exact (by decide : ∀ w, Pipeline.arrRef spec0 w ≠ main_arg1))]
  exact V_main_arg1 m c

/-- Argument 2 reaches the region as launched, -/
theorem V_main_arg2 (c : Dev nD) : V m c main_arg2 = m ((c : Thread nD τ).loc main_arg2) :=
  StableHlo.after_of_forall_not_mem (b := Proc.devRef .tc main_arg2) _ _ (List.forall_iff_forall_mem.mp (by no_op_writes_it))
/-- and ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by no_op_writes_it)),
    Pipeline.withArrays_of_ne _ c (V0 m c) _ main_arg2 (by exact (by decide : ∀ w, Pipeline.arrRef spec0 w ≠ main_arg2))]
  exact V_main_arg2 m c

/-- Argument 3 reaches the region as launched, -/
theorem V_main_arg3 (c : Dev nD) : V m c main_arg3 = m ((c : Thread nD τ).loc main_arg3) :=
  StableHlo.after_of_forall_not_mem (b := Proc.devRef .tc main_arg3) _ _ (List.forall_iff_forall_mem.mp (by no_op_writes_it))
/-- and ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by no_op_writes_it)),
    Pipeline.withArrays_of_ne _ c (V0 m c) _ main_arg3 (by exact (by decide : ∀ w, Pipeline.arrRef spec0 w ≠ main_arg3))]
  exact V_main_arg3 m c

/-- Argument 4 reaches the region as launched, -/
theorem V_main_arg4 (c : Dev nD) : V m c main_arg4 = m ((c : Thread nD τ).loc main_arg4) :=
  StableHlo.after_of_forall_not_mem (b := Proc.devRef .tc main_arg4) _ _ (List.forall_iff_forall_mem.mp (by no_op_writes_it))
/-- and ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by no_op_writes_it)),
    Pipeline.withArrays_of_ne _ c (V0 m c) _ main_arg4 (by exact (by decide : ∀ w, Pipeline.arrRef spec0 w ≠ main_arg4))]
  exact V_main_arg4 m c

/-- Argument 5 reaches the region as launched, -/
theorem V_main_arg5 (c : Dev nD) : V m c main_arg5 = m ((c : Thread nD τ).loc main_arg5) :=
  StableHlo.after_of_forall_not_mem (b := Proc.devRef .tc main_arg5) _ _ (List.forall_iff_forall_mem.mp (by no_op_writes_it))
/-- and ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by no_op_writes_it)),
    Pipeline.withArrays_of_ne _ c (V0 m c) _ main_arg5 (by exact (by decide : ∀ w, Pipeline.arrRef spec0 w ≠ main_arg5))]
  exact V_main_arg5 m c

/-- Argument 6 reaches the region as launched, -/
theorem V_main_arg6 (c : Dev nD) : V m c main_arg6 = m ((c : Thread nD τ).loc main_arg6) :=
  StableHlo.after_of_forall_not_mem (b := Proc.devRef .tc main_arg6) _ _ (List.forall_iff_forall_mem.mp (by no_op_writes_it))
/-- and ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by no_op_writes_it)),
    Pipeline.withArrays_of_ne _ c (V0 m c) _ main_arg6 (by exact (by decide : ∀ w, Pipeline.arrRef spec0 w ≠ main_arg6))]
  exact V_main_arg6 m c

/-- Argument 7 reaches the region as launched, -/
theorem V_main_arg7 (c : Dev nD) : V m c main_arg7 = m ((c : Thread nD τ).loc main_arg7) :=
  StableHlo.after_of_forall_not_mem (b := Proc.devRef .tc main_arg7) _ _ (List.forall_iff_forall_mem.mp (by no_op_writes_it))
/-- and ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by no_op_writes_it)),
    Pipeline.withArrays_of_ne _ c (V0 m c) _ main_arg7 (by exact (by decide : ∀ w, Pipeline.arrRef spec0 w ≠ main_arg7))]
  exact V_main_arg7 m c

/-- Argument 8 reaches the region as launched, -/
theorem V_main_arg8 (c : Dev nD) : V m c main_arg8 = m ((c : Thread nD τ).loc main_arg8) :=
  StableHlo.after_of_forall_not_mem (b := Proc.devRef .tc main_arg8) _ _ (List.forall_iff_forall_mem.mp (by no_op_writes_it))
/-- and ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by no_op_writes_it)),
    Pipeline.withArrays_of_ne _ c (V0 m c) _ main_arg8 (by exact (by decide : ∀ w, Pipeline.arrRef spec0 w ≠ main_arg8))]
  exact V_main_arg8 m c

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, whether the tile fetched it or an earlier
    one did (the block index has not moved since), provided the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every tile, whether the tile fetched it or an earlier
    one did (the block index has not moved since), provided the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every tile, whether the tile fetched it or an earlier
    one did (the block index has not moved since), provided the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every tile, whether the tile fetched it or an earlier
    one did (the block index has not moved since), provided the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every tile, whether the tile fetched it or an earlier
    one did (the block index has not moved since), provided the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- A run that ends with every buffer outside the region's arrays as the final reshape leaves it ends with the nine
    argument arrays as launched: none of them is staged, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-! ## The body's accesses: each buffer whole -/

abbrev r0_0 : Rect S256x1280 := Rect.unit (s := S256x1280) ![0, 0] S256x1280.size inb_S256x1280_S256x1280_0_0
abbrev r0_1 : Rect S1280x3840 := Rect.unit (s := S1280x3840) ![0, 0] S1280x3840.size inb_S1280x3840_S1280x3840_0_0
abbrev r0_2 : Rect S1x3840 := Rect.unit (s := S1x3840) ![0, 0] S1x3840.size inb_S1x3840_S1x3840_0_0
abbrev r0_3 : Rect S1280x48 := Rect.unit (s := S1280x48) ![0, 0] S1280x48.size inb_S1280x48_S1280x48_0_0
abbrev r0_4 : Rect S48x3840 := Rect.unit (s := S48x3840) ![0, 0] S48x3840.size inb_S48x3840_S48x3840_0_0
abbrev r0_5 : Rect S256x3840 := Rect.unit (s := S256x3840) ![0, 0] S256x3840.size inb_S256x3840_S256x3840_0_0

/-! ## What the body leaves in the output block -/

/-- The output buffer after the body: its one store, the body's value of the five input blocks, written over the
    whole buffer. -/
def out0_5 (x0 : Vec F S256x1280 .f32) (x1 : Vec F S1280x3840 .bf16) (x2 : Vec F S1x3840 .f32) (x3 : Vec F S1280x48 .bf16) (x4 : Vec F S48x3840 .bf16) : Vec F S256x3840 .f32 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S256x3840 .f32) (y : S256x3840.Idx) :
    ∃ pc ∈ ([⟨r0_5, p0⟩] : List (View.Piece (Elt F) S256x3840 .f32)), y ∈ pc.1.set :=
  View.cover_of_tiled [⟨r0_5, p0⟩] S256x3840.size (by rfl) y

/-! ## The body's triple -/

set_option maxHeartbeats 1000000 in
/-- The body on whole staging buffers — the five inputs' at known contents, the output's at anything — runs to its end
    leaving the inputs' as they were and the output's at `out0_5` of them. -/
theorem sound_kernel (c : Dev nD) (E : Set ℕ) (i : grid0.Coords)
    (arg1 : Memref sig .tc .vmem S256x1280 .f32) (harg1 : arg1.IsWhole) (arg2 : Memref sig .tc .vmem S1280x3840 .bf16) (harg2 : arg2.IsWhole)
    (arg3 : Memref sig .tc .vmem S1x3840 .f32) (harg3 : arg3.IsWhole) (arg4 : Memref sig .tc .vmem S1280x48 .bf16) (harg4 : arg4.IsWhole)
    (arg5 : Memref sig .tc .vmem S48x3840 .bf16) (harg5 : arg5.IsWhole) (arg6 : Memref sig .tc .vmem S256x3840 .f32) (harg6 : arg6.IsWhole)
    (x0 : Vec F S256x1280 .f32) (x1 : Vec F S1280x3840 .bf16) (x2 : Vec F S1x3840 .f32) (x3 : Vec F S1280x48 .bf16) (x4 : Vec F S48x3840 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__lora_qkv_kernel i arg1 harg1 arg2 harg2 arg3 harg3 arg4 harg4 arg5 harg5 arg6 harg6) K := by
  simp only [cc0__lora_qkv_kernel_eq_skeleton]; unfold cc0__lora_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- On core `c`: the arrays as the region finds them; after the body at tile `t` each input's buffer at its block and
    the output's at `out0_5` of the input blocks; nothing else is used, nothing owed, every share whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any tile: the inputs' buffers hold their blocks, so the triple applies; what the body does not use
    passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, nothing faulting, with every array the region stages at what the proof
    data computes and every other buffer as the final reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main ends, nothing faults, and the nine argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Frame

end
-- ==== Proof.KernelIdealFrame.lean ====
/-
  The frame of `KernelIdeal`: @main is a stretch of host operations (reshapes, transposes, format changes and five
  concatenations that lay the three low-rank factors side by side), ONE pipelined region over 128 row tiles, and a
  final reshape. Per tile the body reads a 256 x 1280 block of rows and the four weight-like operands whole, and writes
  one 256 x 3840 block of the result. This module says what each staging buffer holds after the body at every tile
  (the inputs' blocks unchanged, the output block the body's one value of them), runs the body once against whole
  buffers, and from that obtains the run of @main: it ends, nothing faults, every argument array is as launched, and
  every array the region stages is named. It is stated for any float instance.
-/
import proofs.«127558_j25013889532113_2_alg».proof.Proof.Gen.KernelIdeal.Launch
import proofs.«127558_j25013889532113_2_alg».proof.Proof.Gen.KernelIdeal.Skeleton
import proofs.«127558_j25013889532113_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What the buffers of core `c` hold when the region is entered: the launch contents carried through the host
    operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only buffers outside the region's scope, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result only, which is none of the six arrays the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- Every host operation writes its own result buffer, and no result buffer is an argument: decided reference by
    reference. -/
local macro "no_op_writes_it" : tactic => `(tactic| (
  simp only [hostOps0, hostOps1, List.flatten_cons, List.flatten_nil, List.append_nil, List.cons_append,
    List.nil_append, List.Forall, StableHlo.nullary_writes, StableHlo.unary_writes, StableHlo.nary_writes,
    StableHlo.reshape_writes, Finset.mem_singleton]
  repeat' apply And.intro
  all_goals exact StableHlo.devRef_ne_of_ne (by decide)))

/-- Argument 0 reaches the region as launched, -/
theorem V_main_arg0 (c : Dev nD) : V m c main_arg0 = m ((c : Thread nD τ).loc main_arg0) :=
  StableHlo.after_of_forall_not_mem (b := Proc.devRef .tc main_arg0) _ _ (List.forall_iff_forall_mem.mp (by no_op_writes_it))
/-- and ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by no_op_writes_it)),
    Pipeline.withArrays_of_ne _ c (V0 m c) _ main_arg0 (by exact (by decide : ∀ w, Pipeline.arrRef spec0 w ≠ main_arg0))]
  exact V_main_arg0 m c

/-- Argument 1 reaches the region as launched, -/
theorem V_main_arg1 (c : Dev nD) : V m c main_arg1 = m ((c : Thread nD τ).loc main_arg1) :=
  StableHlo.after_of_forall_not_mem (b := Proc.devRef .tc main_arg1) _ _ (List.forall_iff_forall_mem.mp (by no_op_writes_it))
/-- and ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by no_op_writes_it)),
    Pipeline.withArrays_of_ne _ c (V0 m c) _ main_arg1 (by exact (by decide : ∀ w, Pipeline.arrRef spec0 w ≠ main_arg1))]
  exact V_main_arg1 m c

/-- Argument 2 reaches the region as launched, -/
theorem V_main_arg2 (c : Dev nD) : V m c main_arg2 = m ((c : Thread nD τ).loc main_arg2) :=
  StableHlo.after_of_forall_not_mem (b := Proc.devRef .tc main_arg2) _ _ (List.forall_iff_forall_mem.mp (by no_op_writes_it))
/-- and ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by no_op_writes_it)),
    Pipeline.withArrays_of_ne _ c (V0 m c) _ main_arg2 (by exact (by decide : ∀ w, Pipeline.arrRef spec0 w ≠ main_arg2))]
  exact V_main_arg2 m c

/-- Argument 3 reaches the region as launched, -/
theorem V_main_arg3 (c : Dev nD) : V m c main_arg3 = m ((c : Thread nD τ).loc main_arg3) :=
  StableHlo.after_of_forall_not_mem (b := Proc.devRef .tc main_arg3) _ _ (List.forall_iff_forall_mem.mp (by no_op_writes_it))
/-- and ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by no_op_writes_it)),
    Pipeline.withArrays_of_ne _ c (V0 m c) _ main_arg3 (by exact (by decide : ∀ w, Pipeline.arrRef spec0 w ≠ main_arg3))]
  exact V_main_arg3 m c

/-- Argument 4 reaches the region as launched, -/
theorem V_main_arg4 (c : Dev nD) : V m c main_arg4 = m ((c : Thread nD τ).loc main_arg4) :=
  StableHlo.after_of_forall_not_mem (b := Proc.devRef .tc main_arg4) _ _ (List.forall_iff_forall_mem.mp (by no_op_writes_it))
/-- and ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by no_op_writes_it)),
    Pipeline.withArrays_of_ne _ c (V0 m c) _ main_arg4 (by exact (by decide : ∀ w, Pipeline.arrRef spec0 w ≠ main_arg4))]
  exact V_main_arg4 m c

/-- Argument 5 reaches the region as launched, -/
theorem V_main_arg5 (c : Dev nD) : V m c main_arg5 = m ((c : Thread nD τ).loc main_arg5) :=
  StableHlo.after_of_forall_not_mem (b := Proc.devRef .tc main_arg5) _ _ (List.forall_iff_forall_mem.mp (by no_op_writes_it))
/-- and ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by no_op_writes_it)),
    Pipeline.withArrays_of_ne _ c (V0 m c) _ main_arg5 (by exact (by decide : ∀ w, Pipeline.arrRef spec0 w ≠ main_arg5))]
  exact V_main_arg5 m c

/-- Argument 6 reaches the region as launched, -/
theorem V_main_arg6 (c : Dev nD) : V m c main_arg6 = m ((c : Thread nD τ).loc main_arg6) :=
  StableHlo.after_of_forall_not_mem (b := Proc.devRef .tc main_arg6) _ _ (List.forall_iff_forall_mem.mp (by no_op_writes_it))
/-- and ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by no_op_writes_it)),
    Pipeline.withArrays_of_ne _ c (V0 m c) _ main_arg6 (by exact (by decide : ∀ w, Pipeline.arrRef spec0 w ≠ main_arg6))]
  exact V_main_arg6 m c

/-- Argument 7 reaches the region as launched, -/
theorem V_main_arg7 (c : Dev nD) : V m c main_arg7 = m ((c : Thread nD τ).loc main_arg7) :=
  StableHlo.after_of_forall_not_mem (b := Proc.devRef .tc main_arg7) _ _ (List.forall_iff_forall_mem.mp (by no_op_writes_it))
/-- and ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by no_op_writes_it)),
    Pipeline.withArrays_of_ne _ c (V0 m c) _ main_arg7 (by exact (by decide : ∀ w, Pipeline.arrRef spec0 w ≠ main_arg7))]
  exact V_main_arg7 m c

/-- Argument 8 reaches the region as launched, -/
theorem V_main_arg8 (c : Dev nD) : V m c main_arg8 = m ((c : Thread nD τ).loc main_arg8) :=
  StableHlo.after_of_forall_not_mem (b := Proc.devRef .tc main_arg8) _ _ (List.forall_iff_forall_mem.mp (by no_op_writes_it))
/-- and ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by no_op_writes_it)),
    Pipeline.withArrays_of_ne _ c (V0 m c) _ main_arg8 (by exact (by decide : ∀ w, Pipeline.arrRef spec0 w ≠ main_arg8))]
  exact V_main_arg8 m c

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, whether the tile fetched it or an earlier
    one did (the block index has not moved since), provided the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every tile, whether the tile fetched it or an earlier
    one did (the block index has not moved since), provided the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every tile, whether the tile fetched it or an earlier
    one did (the block index has not moved since), provided the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every tile, whether the tile fetched it or an earlier
    one did (the block index has not moved since), provided the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every tile, whether the tile fetched it or an earlier
    one did (the block index has not moved since), provided the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- A run that ends with every buffer outside the region's arrays as the final reshape leaves it ends with the nine
    argument arrays as launched: none of them is staged, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-! ## The body's accesses: each buffer whole -/

abbrev r0_0 : Rect S256x1280 := Rect.unit (s := S256x1280) ![0, 0] S256x1280.size inb_S256x1280_S256x1280_0_0
abbrev r0_1 : Rect S1280x3840 := Rect.unit (s := S1280x3840) ![0, 0] S1280x3840.size inb_S1280x3840_S1280x3840_0_0
abbrev r0_2 : Rect S1x3840 := Rect.unit (s := S1x3840) ![0, 0] S1x3840.size inb_S1x3840_S1x3840_0_0
abbrev r0_3 : Rect S1280x48 := Rect.unit (s := S1280x48) ![0, 0] S1280x48.size inb_S1280x48_S1280x48_0_0
abbrev r0_4 : Rect S48x3840 := Rect.unit (s := S48x3840) ![0, 0] S48x3840.size inb_S48x3840_S48x3840_0_0
abbrev r0_5 : Rect S256x3840 := Rect.unit (s := S256x3840) ![0, 0] S256x3840.size inb_S256x3840_S256x3840_0_0

/-! ## What the body leaves in the output block -/

/-- The output buffer after the body: its one store, the body's value of the five input blocks, written over the
    whole buffer. -/
def out0_5 (x0 : Vec F S256x1280 .f32) (x1 : Vec F S1280x3840 .bf16) (x2 : Vec F S1x3840 .f32) (x3 : Vec F S1280x48 .bf16) (x4 : Vec F S48x3840 .bf16) : Vec F S256x3840 .f32 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S256x3840 .f32) (y : S256x3840.Idx) :
    ∃ pc ∈ ([⟨r0_5, p0⟩] : List (View.Piece (Elt F) S256x3840 .f32)), y ∈ pc.1.set :=
  View.cover_of_tiled [⟨r0_5, p0⟩] S256x3840.size (by rfl) y

/-! ## The body's triple -/

set_option maxHeartbeats 1000000 in
/-- The body on whole staging buffers — the five inputs' at known contents, the output's at anything — runs to its end
    leaving the inputs' as they were and the output's at `out0_5` of them. -/
theorem sound_kernel (c : Dev nD) (E : Set ℕ) (i : grid0.Coords)
    (arg1 : Memref sig .tc .vmem S256x1280 .f32) (harg1 : arg1.IsWhole) (arg2 : Memref sig .tc .vmem S1280x3840 .bf16) (harg2 : arg2.IsWhole)
    (arg3 : Memref sig .tc .vmem S1x3840 .f32) (harg3 : arg3.IsWhole) (arg4 : Memref sig .tc .vmem S1280x48 .bf16) (harg4 : arg4.IsWhole)
    (arg5 : Memref sig .tc .vmem S48x3840 .bf16) (harg5 : arg5.IsWhole) (arg6 : Memref sig .tc .vmem S256x3840 .f32) (harg6 : arg6.IsWhole)
    (x0 : Vec F S256x1280 .f32) (x1 : Vec F S1280x3840 .bf16) (x2 : Vec F S1x3840 .f32) (x3 : Vec F S1280x48 .bf16) (x4 : Vec F S48x3840 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__lora_qkv_kernel i arg1 harg1 arg2 harg2 arg3 harg3 arg4 harg4 arg5 harg5 arg6 harg6) K := by
  simp only [cc0__lora_qkv_kernel_eq_skeleton]; unfold cc0__lora_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- On core `c`: the arrays as the region finds them; after the body at tile `t` each input's buffer at its block and
    the output's at `out0_5` of the input blocks; nothing else is used, nothing owed, every share whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any tile: the inputs' buffers hold their blocks, so the triple applies; what the body does not use
    passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, nothing faulting, with every array the region stages at what the proof
    data computes and every other buffer as the final reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main ends, nothing faults, and the nine argument arrays are as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Frame

end
-- ==== Proof.Spec.lean ====
/-
  The value both programs compute, as one function of the nine argument arrays over the extended reals.
  Write an output column as `1280 g + d` with `g` one of the three groups (query, key, value) and `d < 1280`. Then
      G (b, h, w, 1280 g + d) = (∑ k, x (b, h, w, k) · W (1280 g + d, k) + bias (1280 g + d))
                                + (∑ r, (∑ k, x (b, h, w, k) · A_g (r, k)) · B_g (d, r)) · 1,
  the base linear map plus the low-rank update of group `g`, scaled by the literal `1`. This module imports no program.
-/
import Idealize.ShloMosaic.PureOps.Ideal
import Idealize.ShloMosaic.Lib.ValueIdx

noncomputable section

namespace Cert.Spec

open Idealize.ShloMosaic Idealize.ShloMosaic.ValueIdx

abbrev SX : Shape := ⟨4, ![8, 64, 64, 1280]⟩
abbrev SO : Shape := ⟨4, ![8, 64, 64, 3840]⟩
abbrev SW : Shape := ⟨2, ![3840, 1280]⟩
abbrev Sb : Shape := ⟨1, ![3840]⟩
abbrev SA : Shape := ⟨2, ![16, 1280]⟩
abbrev SB : Shape := ⟨2, ![1280, 16]⟩

/-- The scale factor's word `1.0` as an extended real. -/
abbrev one : EReal := Ideal.ofBits .f32 0x3F800000#32

/-- Output column `1280 g + d`: place `d` of group `g`. -/
abbrev col (g : Fin 3) (d : Fin 1280) : Fin 3840 := ⟨d.val + 1280 * g.val, by omega⟩
/-- Projection `16 g + r`: place `r` of group `g`. -/
abbrev slot (g : Fin 3) (r : Fin 16) : Fin 48 := ⟨r.val + 16 * g.val, by omega⟩

theorem col_div (g : Fin 3) (d : Fin 1280) : (col g d).val / 1280 = g.val := by show (d.val + 1280 * g.val) / 1280 = g.val; omega
theorem col_mod (g : Fin 3) (d : Fin 1280) : (col g d).val % 1280 = d.val := by show (d.val + 1280 * g.val) % 1280 = d.val; omega
/-- Every output column is some group's some place. -/
theorem exists_col (o : Fin 3840) : ∃ (g : Fin 3) (d : Fin 1280), o = col g d :=
  ⟨⟨o.val / 1280, by omega⟩, ⟨o.val % 1280, by omega⟩, Fin.ext (by show o.val = o.val % 1280 + 1280 * (o.val / 1280); omega)⟩
/-- Every projection is some group's some place. -/
theorem exists_slot (j : Fin 48) : ∃ (g : Fin 3) (r : Fin 16), j = slot g r :=
  ⟨⟨j.val / 16, by omega⟩, ⟨j.val % 16, by omega⟩, Fin.ext (by show j.val = j.val % 16 + 16 * (j.val / 16); omega)⟩

/-- Three things indexed by the group. -/
def fam3 {α : Type} (a b c : α) : Fin 3 → α := fun g => match g with | 0 => a | 1 => b | 2 => c

/-- The result at row `(b, h, w)` and column `1280 g + d`. -/
def part (x : SX.Idx → EReal) (W : SW.Idx → EReal) (bias : Sb.Idx → EReal) (As : Fin 3 → SA.Idx → EReal) (Bs : Fin 3 → SB.Idx → EReal)
    (g : Fin 3) (b : Fin 8) (h : Fin 64) (w : Fin 64) (d : Fin 1280) : EReal :=
  ((∑ k : Fin 1280, x (ix4 b h w k) * W (ix2 (col g d) k)) + bias (ix1 (col g d)))
    + (∑ r : Fin 16, (∑ k : Fin 1280, x (ix4 b h w k) * As g (ix2 r k)) * Bs g (ix2 d r)) * one

/-- The whole result, index by index. -/
def G (x : SX.Idx → EReal) (W : SW.Idx → EReal) (bias : Sb.Idx → EReal) (As : Fin 3 → SA.Idx → EReal) (Bs : Fin 3 → SB.Idx → EReal) :
    SO.Idx → EReal := fun i =>
  part x W bias As Bs ⟨(i 3).val / 1280, by have : (i 3).val < 3840 := (i 3).isLt; omega⟩
    ⟨(i 0).val, (i 0).isLt⟩ ⟨(i 1).val, (i 1).isLt⟩ ⟨(i 2).val, (i 2).isLt⟩ ⟨(i 3).val % 1280, Nat.mod_lt _ (by decide)⟩

theorem G_apply (x : SX.Idx → EReal) (W : SW.Idx → EReal) (bias : Sb.Idx → EReal) (As : Fin 3 → SA.Idx → EReal) (Bs : Fin 3 → SB.Idx → EReal)
    (b : Fin 8) (h : Fin 64) (w : Fin 64) (g : Fin 3) (d : Fin 1280) :
    G x W bias As Bs (ix4 b h w (col g d)) = part x W bias As Bs g b h w d := by
  unfold G
  have eg : (⟨((ix4 b h w (col g d) : SO.Idx) 3).val / 1280, by have : ((ix4 b h w (col g d) : SO.Idx) 3).val < 3840 := ((ix4 b h w (col g d) : SO.Idx) 3).isLt; omega⟩ : Fin 3) = g :=
    Fin.ext (col_div g d)
  have ed : (⟨((ix4 b h w (col g d) : SO.Idx) 3).val % 1280, Nat.mod_lt _ (by decide)⟩ : Fin 1280) = d := Fin.ext (col_mod g d)
  rw [eg, ed]

end Cert.Spec

end
-- ==== Proof.LibGroupSum.lean ====
/-
  A sum over `G * R` consecutive positions, read as `G` groups of `R`: when every term outside one group vanishes, the
  sum is the sum over that group. In any additive commutative monoid, for any `G` and `R`.
-/
import Mathlib.Algebra.BigOperators.Fin
import Mathlib.Algebra.BigOperators.Group.Finset.Basic
import Mathlib.Logic.Equiv.Fin.Basic

namespace Cert.LibGroupSum

open Finset

/-- Position `R * g + r` of `G * R`: place `r` of group `g`. -/
def pos {G R : Nat} (g : Fin G) (r : Fin R) : Fin (G * R) := finProdFinEquiv (g, r)

theorem pos_val {G R : Nat} (g : Fin G) (r : Fin R) : (pos g r).val = r.val + R * g.val := rfl

/-- A sum over `G * R` positions is the sum over the groups of the sums over their places. -/
theorem sum_groups {M : Type*} [AddCommMonoid M] {G R : Nat} (f : Fin (G * R) → M) :
    ∑ j : Fin (G * R), f j = ∑ g : Fin G, ∑ r : Fin R, f (pos g r) := by
  rw [← Fintype.sum_prod_type' (fun g r => f (pos g r))]
  exact (Fintype.sum_equiv finProdFinEquiv (fun p => f (pos p.1 p.2)) f (fun _ => rfl)).symm

/-- If every term outside group `g` is zero, the whole sum is the sum over group `g`. -/
theorem sum_one_group {M : Type*} [AddCommMonoid M] {G R : Nat} (f : Fin (G * R) → M) (g : Fin G)
    (h0 : ∀ (g' : Fin G) (r : Fin R), g' ≠ g → f (pos g' r) = 0) :
    ∑ j : Fin (G * R), f j = ∑ r : Fin R, f (pos g r) := by
  rw [sum_groups]
  refine Finset.sum_eq_single_of_mem g (Finset.mem_univ g) fun g' _ hg' => ?_
  exact Finset.sum_eq_zero fun r _ => h0 g' r hg'

end Cert.LibGroupSum
-- ==== Proof.KernelIdealHost.lean ====
/-
  The five arrays the region stages, as the host operations before it leave them, and each read at an index over the
  extended reals. The rows are the input with its three leading axes flattened; the weight is transposed; the bias
  becomes one row; the three left factors `A` (each 16 x 1280) are transposed and laid side by side into a 1280 x 48
  matrix, so column `16 g + r` is row `r` of factor `g`; the three right factors `B` (each 1280 x 16) are transposed
  and placed on the block diagonal of a 48 x 3840 matrix whose other blocks are zero, so entry `(16 g' + r, 1280 g + d)`
  is `B_g (d, r)` when `g' = g` and `0` otherwise.
-/
import proofs.«127558_j25013889532113_2_alg».proof.Proof.KernelIdealFrame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«127558_j25013889532113_2_alg».proof.Proof.Spec
import proofs.«127558_j25013889532113_2_alg».proof.Proof.LibGroupSum

set_option maxRecDepth 16384

noncomputable section

namespace Cert.KernelIdeal.Host

open Cert.KernelIdeal Cert.KernelIdeal.Gen Cert.KernelIdeal.Frame
open Idealize.ShloMosaic Idealize.ShloMosaic.TcCoe Idealize.SL.Sem Idealize.ShloMosaic.StableHlo Idealize.ShloMosaic.ValueIdx

/-! ## The host operations' terms -/

section Terms
variable {F : FTy → Type} [FloatOps F]

/-- The weight, transposed. -/
def tW (W : (⟨S3840x1280, .f32⟩ : BufTy).Contents (Elt F)) : (⟨S1280x3840, .bf16⟩ : BufTy).Contents (Elt F) :=
  truncf .bf16 (transpose S1280x3840 [1, 0] W transposes_S3840x1280_S1280x3840_1_0) bitsLt_bf16_f32
/-- A left factor, transposed. -/
def tA (A : (⟨S16x1280, .f32⟩ : BufTy).Contents (Elt F)) : (⟨S1280x16, .bf16⟩ : BufTy).Contents (Elt F) :=
  truncf .bf16 (transpose S1280x16 [1, 0] A transposes_S16x1280_S1280x16_1_0) bitsLt_bf16_f32
/-- A right factor, transposed. -/
def tB (B : (⟨S1280x16, .f32⟩ : BufTy).Contents (Elt F)) : (⟨S16x1280, .bf16⟩ : BufTy).Contents (Elt F) :=
  truncf .bf16 (transpose S16x1280 [1, 0] B transposes_S1280x16_S16x1280_1_0) bitsLt_bf16_f32
/-- The zero block. -/
def zblk : (⟨S16x1280, .bf16⟩ : BufTy).Contents (Elt F) :=
  broadcastInDim S16x1280 ![] bcast_S_S16x1280 (constant S_ .bf16 0x0000#16)
/-- Three 16 x 1280 blocks side by side. -/
def row3 (P : Fin 3 → (⟨S16x1280, .bf16⟩ : BufTy).Contents (Elt F)) : (⟨S16x3840, .bf16⟩ : BufTy).Contents (Elt F) :=
  concatenate S16x3840 1 [⟨S16x1280, P 0⟩, ⟨S16x1280, P 1⟩, ⟨S16x1280, P 2⟩] concatenates_S16x1280_S16x1280_S16x1280_S16x3840_d1
/-- The three left factors side by side. -/
def aAll (As : Fin 3 → (⟨S16x1280, .f32⟩ : BufTy).Contents (Elt F)) : (⟨S1280x48, .bf16⟩ : BufTy).Contents (Elt F) :=
  concatenate S1280x48 1 [⟨S1280x16, tA (As 0)⟩, ⟨S1280x16, tA (As 1)⟩, ⟨S1280x16, tA (As 2)⟩] concatenates_S1280x16_S1280x16_S1280x16_S1280x48_d1
/-- Row group `g'` of the block-diagonal matrix: factor `g'` in block `g'`, zero blocks beside it. -/
def diagRow (Bs : Fin 3 → (⟨S1280x16, .f32⟩ : BufTy).Contents (Elt F)) (g' : Fin 3) : (⟨S16x3840, .bf16⟩ : BufTy).Contents (Elt F) :=
  row3 fun g => if g = g' then tB (Bs g') else zblk
/-- The three right factors on the block diagonal. -/
def bAll (Bs : Fin 3 → (⟨S1280x16, .f32⟩ : BufTy).Contents (Elt F)) : (⟨S48x3840, .bf16⟩ : BufTy).Contents (Elt F) :=
  concatenate S48x3840 0 [⟨S16x3840, diagRow Bs 0⟩, ⟨S16x3840, diagRow Bs 1⟩, ⟨S16x3840, diagRow Bs 2⟩] concatenates_S16x3840_S16x3840_S16x3840_S48x3840_d0

variable (m : (ℓ : Loc nD τ sig) → Buf (Elt F) ℓ)

/-- The three left factors and the three right factors among the arguments. -/
def argA (c : Dev nD) : Fin 3 → (⟨S16x1280, .f32⟩ : BufTy).Contents (Elt F) :=
  Cert.Spec.fam3 (m ((c.tc : Thread nD τ).loc main_arg3)) (m ((c.tc : Thread nD τ).loc main_arg5)) (m ((c.tc : Thread nD τ).loc main_arg7))
def argB (c : Dev nD) : Fin 3 → (⟨S1280x16, .f32⟩ : BufTy).Contents (Elt F) :=
  Cert.Spec.fam3 (m ((c.tc : Thread nD τ).loc main_arg4)) (m ((c.tc : Thread nD τ).loc main_arg6)) (m ((c.tc : Thread nD τ).loc main_arg8))

/-- The rows: the input with its leading axes flattened. -/
theorem V_rows (c : Dev nD) : (V m c main_v0 : (⟨S32768x1280, .f32⟩ : BufTy).Contents (Elt F))
    = shapeCast S32768x1280 (m ((c.tc : Thread nD τ).loc main_arg0)) shapeCasts_S8x64x64x1280_S32768x1280 := by
  show StableHlo.after hostOps0 (fun b => m (c, b)) (Proc.devRef .tc main_v0) = _
  after_results <;> rfl
/-- The weight, transposed. -/
theorem V_weight (c : Dev nD) : (V m c main_v2 : (⟨S1280x3840, .bf16⟩ : BufTy).Contents (Elt F))
    = tW (m ((c.tc : Thread nD τ).loc main_arg1)) := by
  show StableHlo.after hostOps0 (fun b => m (c, b)) (Proc.devRef .tc main_v2) = _
  after_results <;> rfl
/-- The bias as one row. -/
theorem V_bias (c : Dev nD) : (V m c main_v3 : (⟨S1x3840, .f32⟩ : BufTy).Contents (Elt F))
    = shapeCast S1x3840 (m ((c.tc : Thread nD τ).loc main_arg2)) shapeCasts_S3840_S1x3840 := by
  show StableHlo.after hostOps0 (fun b => m (c, b)) (Proc.devRef .tc main_v3) = _
  after_results <;> rfl
/-- The left factors side by side. -/
theorem V_left (c : Dev nD) : (V m c main_v16 : (⟨S1280x48, .bf16⟩ : BufTy).Contents (Elt F)) = aAll (argA m c) := by
  show StableHlo.after hostOps0 (fun b => m (c, b)) (Proc.devRef .tc main_v16) = _
  after_results <;> rfl
/-- The right factors on the block diagonal. -/
theorem V_right (c : Dev nD) : (V m c main_v21 : (⟨S48x3840, .bf16⟩ : BufTy).Contents (Elt F)) = bAll (argB m c) := by
  show StableHlo.after hostOps0 (fun b => m (c, b)) (Proc.devRef .tc main_v21) = _
  after_results <;> rfl

end Terms

/-! ## Each array read at an index, over the extended reals -/

section Read
open Cert.Spec

/-- Row `(b, h, w)` of the flattened input: `4096 b + 64 h + w`. -/
abbrev rowOf (b : Fin 8) (h : Fin 64) (w : Fin 64) : Fin 32768 := ⟨(b.val * 64 + h.val) * 64 + w.val, by omega⟩

/-- Every row of the flattened input is some `(b, h, w)`. -/
theorem exists_row (M : Fin 32768) : ∃ (b : Fin 8) (h : Fin 64) (w : Fin 64), M = rowOf b h w :=
  ⟨⟨M.val / 4096, by omega⟩, ⟨M.val / 64 % 64, by omega⟩, ⟨M.val % 64, by omega⟩,
    Fin.ext (by show M.val = (M.val / 4096 * 64 + M.val / 64 % 64) * 64 + M.val % 64; omega)⟩

theorem slot_div (g : Fin 3) (r : Fin 16) : (slot g r).val / 16 = g.val := by show (r.val + 16 * g.val) / 16 = g.val; omega
theorem slot_mod (g : Fin 3) (r : Fin 16) : (slot g r).val % 16 = r.val := by show (r.val + 16 * g.val) % 16 = r.val; omega

/-- The flattened input at row `(b, h, w)`. -/
theorem rows_apply (x : (⟨S8x64x64x1280, .f32⟩ : BufTy).Contents (Elt Ideal)) (b : Fin 8) (h : Fin 64) (w : Fin 64) (k : Fin 1280) :
    shapeCast S32768x1280 x shapeCasts_S8x64x64x1280_S32768x1280 (ix2 (rowOf b h w) k) = x (ix4 b h w k) :=
  shapeCast_apply x _ _ _ (by rw [Shape.rowMajor_val_four, Shape.rowMajor_val_two]; rfl)

/-- The result, unflattened: entry `(b, h, w, o)` is the flat array's entry at row `(b, h, w)`. -/
theorem unflat_apply (K : (⟨S32768x3840, .f32⟩ : BufTy).Contents (Elt Ideal)) (b : Fin 8) (h : Fin 64) (w : Fin 64) (o : Fin 3840) :
    shapeCast S8x64x64x3840 K shapeCasts_S32768x3840_S8x64x64x3840 (ix4 b h w o) = K (ix2 (rowOf b h w) o) :=
  shapeCast_apply K _ _ _ (by rw [Shape.rowMajor_val_four, Shape.rowMajor_val_two]; rfl)

/-- The one-row bias at a column. -/
theorem biasRow_apply (bias : (⟨S3840, .f32⟩ : BufTy).Contents (Elt Ideal)) (q : Fin 3840) :
    shapeCast S1x3840 bias shapeCasts_S3840_S1x3840 (ix2 (0 : Fin 1) q) = bias (ix1 q) :=
  shapeCast_a_1a_apply bias _ 0 q

theorem tW_apply (W : (⟨S3840x1280, .f32⟩ : BufTy).Contents (Elt Ideal)) (k : Fin 1280) (q : Fin 3840) :
    tW (F := Ideal) W (ix2 k q) = W (ix2 q k) :=
  transpose_ix2_apply W transposes_S3840x1280_S1280x3840_1_0 k q
theorem tA_apply (A : (⟨S16x1280, .f32⟩ : BufTy).Contents (Elt Ideal)) (k : Fin 1280) (r : Fin 16) :
    tA (F := Ideal) A (ix2 k r) = A (ix2 r k) :=
  transpose_ix2_apply A transposes_S16x1280_S1280x16_1_0 k r
theorem tB_apply (B : (⟨S1280x16, .f32⟩ : BufTy).Contents (Elt Ideal)) (r : Fin 16) (d : Fin 1280) :
    tB (F := Ideal) B (ix2 r d) = B (ix2 d r) :=
  transpose_ix2_apply B transposes_S1280x16_S16x1280_1_0 r d

/-- The zero block is zero everywhere. -/
theorem zblk_apply (i : S16x1280.Idx) : zblk (F := Ideal) i = (0 : EReal) := by
  unfold zblk
  rw [broadcastInDim_apply _ bcast_S_S16x1280 _ i ix0 (fun a => a.elim0)]
  show Ideal.ofBits .bf16 0x0000#16 = 0
  simp [Ideal.ofBits, Ideal.ieee]

/-- Three blocks side by side, read in block `g` at place `d`. -/
theorem row3_apply (P : Fin 3 → (⟨S16x1280, .bf16⟩ : BufTy).Contents (Elt Ideal)) (r : Fin 16) (g : Fin 3) (d : Fin 1280) :
    row3 (F := Ideal) P (ix2 r (col g d)) = P g (ix2 r d) := by
  unfold row3
  exact concatenate_ofFn_apply (t := S16x3840) (s₁ := S16x1280) 1 P _ rfl 1280 rfl (ix2 r (col g d)) g (col_div g d) (ix2 r d) (col_mod g d).symm
    (fun b hb => by
      match b with
      | ⟨0, _⟩ => rfl
      | ⟨1, _⟩ => exact absurd rfl hb)

/-- Column `16 g + r` of the left factors side by side is row `r` of factor `g`. -/
theorem aAll_apply (As : Fin 3 → (⟨S16x1280, .f32⟩ : BufTy).Contents (Elt Ideal)) (k : Fin 1280) (g : Fin 3) (r : Fin 16) :
    aAll (F := Ideal) As (ix2 k (slot g r)) = As g (ix2 r k) := by
  unfold aAll
  refine (concatenate_ofFn_apply (t := S1280x48) (s₁ := S1280x16) 1 (fun n => tA (As n)) _ rfl 16 rfl (ix2 k (slot g r)) g (slot_div g r) (ix2 k r) (slot_mod g r).symm
    (fun b hb => by
      match b with
      | ⟨0, _⟩ => rfl
      | ⟨1, _⟩ => exact absurd rfl hb)).trans ?_
  exact tA_apply (As g) k r

/-- The block-diagonal matrix: block `(g', g)` is factor `g` transposed when `g' = g`, and zero otherwise. -/
theorem bAll_apply (Bs : Fin 3 → (⟨S1280x16, .f32⟩ : BufTy).Contents (Elt Ideal)) (g' g : Fin 3) (r : Fin 16) (d : Fin 1280) :
    bAll (F := Ideal) Bs (ix2 (slot g' r) (col g d)) = if g = g' then Bs g' (ix2 d r) else 0 := by
  unfold bAll
  refine (concatenate_ofFn_apply (t := S48x3840) (s₁ := S16x3840) 0 (fun n => diagRow Bs n) _ rfl 16 rfl (ix2 (slot g' r) (col g d)) g' (slot_div g' r) (ix2 r (col g d)) (slot_mod g' r).symm
    (fun b hb => by
      match b with
      | ⟨0, _⟩ => exact absurd rfl hb
      | ⟨1, _⟩ => rfl)).trans ?_
  unfold diagRow
  rw [row3_apply]
  split
  · exact tB_apply (Bs g') r d
  · exact zblk_apply _

/-- THE KERNEL'S ENTRY IS THE SPECIFICATION'S. At row `(b, h, w)` and column `1280 g + d`, the base product and bias
    read through the transposes and reshapes are the specification's; and of the 48 terms of the low-rank sum the 32
    outside group `g` are a number times the zero block's `0`, so the sum is the 16 terms of group `g`. -/
theorem entry (x : (⟨S8x64x64x1280, .f32⟩ : BufTy).Contents (Elt Ideal)) (W : (⟨S3840x1280, .f32⟩ : BufTy).Contents (Elt Ideal))
    (bias : (⟨S3840, .f32⟩ : BufTy).Contents (Elt Ideal))
    (As : Fin 3 → (⟨S16x1280, .f32⟩ : BufTy).Contents (Elt Ideal)) (Bs : Fin 3 → (⟨S1280x16, .f32⟩ : BufTy).Contents (Elt Ideal))
    (b : Fin 8) (h : Fin 64) (w : Fin 64) (g : Fin 3) (d : Fin 1280) :
    ((∑ k : Fin 1280, shapeCast S32768x1280 x shapeCasts_S8x64x64x1280_S32768x1280 (ix2 (rowOf b h w) k) * tW (F := Ideal) W (ix2 k (col g d)))
        + shapeCast S1x3840 bias shapeCasts_S3840_S1x3840 (ix2 (0 : Fin 1) (col g d)))
      + (∑ j : Fin 48, (∑ k : Fin 1280, shapeCast S32768x1280 x shapeCasts_S8x64x64x1280_S32768x1280 (ix2 (rowOf b h w) k) * aAll (F := Ideal) As (ix2 k j))
          * bAll (F := Ideal) Bs (ix2 j (col g d))) * one
      = part x W bias As Bs g b h w d := by
  unfold part
  have hbase : (∑ k : Fin 1280, shapeCast S32768x1280 x shapeCasts_S8x64x64x1280_S32768x1280 (ix2 (rowOf b h w) k) * tW (F := Ideal) W (ix2 k (col g d)))
      = ∑ k : Fin 1280, x (ix4 b h w k) * W (ix2 (col g d) k) :=
    Finset.sum_congr rfl fun k _ => by rw [rows_apply, tW_apply]
  have hbias : shapeCast S1x3840 bias shapeCasts_S3840_S1x3840 (ix2 (0 : Fin 1) (col g d)) = bias (ix1 (col g d)) :=
    biasRow_apply bias (col g d)
  have hproj : ∀ j : Fin 48, (∑ k : Fin 1280, shapeCast S32768x1280 x shapeCasts_S8x64x64x1280_S32768x1280 (ix2 (rowOf b h w) k) * aAll (F := Ideal) As (ix2 k j))
      = ∑ k : Fin 1280, x (ix4 b h w k) * aAll (F := Ideal) As (ix2 k j) :=
    fun j => Finset.sum_congr rfl fun k _ => by rw [rows_apply]
  have hlora : (∑ j : Fin 48, (∑ k : Fin 1280, shapeCast S32768x1280 x shapeCasts_S8x64x64x1280_S32768x1280 (ix2 (rowOf b h w) k) * aAll (F := Ideal) As (ix2 k j))
        * bAll (F := Ideal) Bs (ix2 j (col g d)))
      = ∑ r : Fin 16, (∑ k : Fin 1280, x (ix4 b h w k) * As g (ix2 r k)) * Bs g (ix2 d r) := by
    have key := Cert.LibGroupSum.sum_one_group (G := 3) (R := 16)
      (fun j : Fin 48 => (∑ k : Fin 1280, x (ix4 b h w k) * aAll (F := Ideal) As (ix2 k j)) * bAll (F := Ideal) Bs (ix2 j (col g d))) g
      (fun g' r hg' => by
        show (∑ k : Fin 1280, x (ix4 b h w k) * aAll (F := Ideal) As (ix2 k (slot g' r))) * bAll (F := Ideal) Bs (ix2 (slot g' r) (col g d)) = 0
        rw [bAll_apply, if_neg (fun e => hg' e.symm), mul_zero])
    refine (Finset.sum_congr rfl fun j _ => by rw [hproj j]).trans (key.trans (Finset.sum_congr rfl fun r _ => ?_))
    show (∑ k : Fin 1280, x (ix4 b h w k) * aAll (F := Ideal) As (ix2 k (slot g r))) * bAll (F := Ideal) Bs (ix2 (slot g r) (col g d)) = _
    rw [bAll_apply, if_pos rfl]
    exact congrArg (· * Bs g (ix2 d r)) (Finset.sum_congr rfl fun k _ => by rw [aAll_apply])
  rw [hbase, hbias, hlora]

end Read

end Cert.KernelIdeal.Host

end
-- ==== Proof.KernelIdealPayload.lean ====
/-
  The body's one stored value, entry by entry over the extended reals. With `x` the 256 x 1280 block of rows, `w` the
  1280 x 3840 weight, `b` the one-row bias, `a` the 1280 x 48 matrix of the three left low-rank factors side by side and
  `z` the 48 x 3840 matrix holding the three right factors on its block diagonal, entry `(p, q)` is
      (∑ k, x (p, k) · w (k, q) + b (0, q)) + (∑ j, (∑ k, x (p, k) · a (k, j)) · z (j, q)) · 1.
  A change of float format is the identity on the extended reals, and a matrix product into a zero accumulator is the
  plain sum over the contracted axis.
-/
import proofs.«127558_j25013889532113_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The word of the scale factor `1.0`, as an extended real. -/
abbrev one : EReal := Ideal.ofBits .f32 0x3F800000#32

theorem mm_w_l0 (i : S256x3840.Idx) (q : dot_S256x1280_S1280x3840_S256x3840_1_0_0_1_n_n.contr.Idx) : (dot_S256x1280_S1280x3840_S256x3840_1_0_0_1_n_n.lhsIdx i q 0).val = (i 0).val := by
  unfold DotDims.lhsIdx
  rw [dif_neg (show ¬(0 : Fin S256x1280.rank) ∈ dot_S256x1280_S1280x3840_S256x3840_1_0_0_1_n_n.lhsBatch by decide), dif_pos (show (0 : Fin S256x1280.rank) ∈ dot_S256x1280_S1280x3840_S256x3840_1_0_0_1_n_n.lhsNonContracting by decide)]
  rfl
theorem mm_w_r1 (i : S256x3840.Idx) (q : dot_S256x1280_S1280x3840_S256x3840_1_0_0_1_n_n.contr.Idx) : (dot_S256x1280_S1280x3840_S256x3840_1_0_0_1_n_n.rhsIdx i q 1).val = (i 1).val := by
  unfold DotDims.rhsIdx
  rw [dif_neg (show ¬(1 : Fin S1280x3840.rank) ∈ dot_S256x1280_S1280x3840_S256x3840_1_0_0_1_n_n.rhsBatch by decide), dif_pos (show (1 : Fin S1280x3840.rank) ∈ dot_S256x1280_S1280x3840_S256x3840_1_0_0_1_n_n.rhsNonContracting by decide)]
  rfl
/-- The base product, rows by weight: entry `(p, q)` is the inner product of row `p` with column `q`. -/
theorem mm_w {φ₁ φ₂ : FTy} (l : FVec Ideal S256x1280 φ₁) (r : FVec Ideal S1280x3840 φ₂) (p : Fin 256) (q : Fin 3840) :
    FloatOps.matmul (F := Ideal) dot_S256x1280_S1280x3840_S256x3840_1_0_0_1_n_n none l r (constant S256x3840 .f32 0x00000000#32) (ix2 p q)
      = ∑ k : Fin 1280, l (ix2 p k) * r (ix2 k q) := by
  rw [Ideal.matmul_constant_zero_apply, ← Equiv.sum_comp (contrEquiv1 dot_S256x1280_S1280x3840_S256x3840_1_0_0_1_n_n 1280 rfl rfl).symm]
  refine Finset.sum_congr rfl fun k _ => ?_
  have hk := contrEquiv1_symm_val dot_S256x1280_S1280x3840_S256x3840_1_0_0_1_n_n 1280 rfl rfl k
  have el : dot_S256x1280_S1280x3840_S256x3840_1_0_0_1_n_n.lhsIdx (ix2 p q) ((contrEquiv1 dot_S256x1280_S1280x3840_S256x3840_1_0_0_1_n_n 1280 rfl rfl).symm k) = ix2 p k := funext fun a => Fin.ext (by
    match a with
    | ⟨0, _⟩ => exact mm_w_l0 _ _
    | ⟨1, _⟩ => exact (dot_S256x1280_S1280x3840_S256x3840_1_0_0_1_n_n.lhsIdx_val_of_single rfl _ _).trans hk)
  have er : dot_S256x1280_S1280x3840_S256x3840_1_0_0_1_n_n.rhsIdx (ix2 p q) ((contrEquiv1 dot_S256x1280_S1280x3840_S256x3840_1_0_0_1_n_n 1280 rfl rfl).symm k) = ix2 k q := funext fun a => Fin.ext (by
    match a with
    | ⟨0, _⟩ => exact (dot_S256x1280_S1280x3840_S256x3840_1_0_0_1_n_n.rhsIdx_val_of_single rfl _ _).trans hk
    | ⟨1, _⟩ => exact mm_w_r1 _ _)
  rw [el, er]

theorem mm_a_l0 (i : S256x48.Idx) (q : dot_S256x1280_S1280x48_S256x48_1_0_0_1_n_n.contr.Idx) : (dot_S256x1280_S1280x48_S256x48_1_0_0_1_n_n.lhsIdx i q 0).val = (i 0).val := by
  unfold DotDims.lhsIdx
  rw [dif_neg (show ¬(0 : Fin S256x1280.rank) ∈ dot_S256x1280_S1280x48_S256x48_1_0_0_1_n_n.lhsBatch by decide), dif_pos (show (0 : Fin S256x1280.rank) ∈ dot_S256x1280_S1280x48_S256x48_1_0_0_1_n_n.lhsNonContracting by decide)]
  rfl
theorem mm_a_r1 (i : S256x48.Idx) (q : dot_S256x1280_S1280x48_S256x48_1_0_0_1_n_n.contr.Idx) : (dot_S256x1280_S1280x48_S256x48_1_0_0_1_n_n.rhsIdx i q 1).val = (i 1).val := by
  unfold DotDims.rhsIdx
  rw [dif_neg (show ¬(1 : Fin S1280x48.rank) ∈ dot_S256x1280_S1280x48_S256x48_1_0_0_1_n_n.rhsBatch by decide), dif_pos (show (1 : Fin S1280x48.rank) ∈ dot_S256x1280_S1280x48_S256x48_1_0_0_1_n_n.rhsNonContracting by decide)]
  rfl
/-- The rows against the three left factors side by side. -/
theorem mm_a {φ₁ φ₂ : FTy} (l : FVec Ideal S256x1280 φ₁) (r : FVec Ideal S1280x48 φ₂) (p : Fin 256) (q : Fin 48) :
    FloatOps.matmul (F := Ideal) dot_S256x1280_S1280x48_S256x48_1_0_0_1_n_n none l r (constant S256x48 .f32 0x00000000#32) (ix2 p q)
      = ∑ k : Fin 1280, l (ix2 p k) * r (ix2 k q) := by
  rw [Ideal.matmul_constant_zero_apply, ← Equiv.sum_comp (contrEquiv1 dot_S256x1280_S1280x48_S256x48_1_0_0_1_n_n 1280 rfl rfl).symm]
  refine Finset.sum_congr rfl fun k _ => ?_
  have hk := contrEquiv1_symm_val dot_S256x1280_S1280x48_S256x48_1_0_0_1_n_n 1280 rfl rfl k
  have el : dot_S256x1280_S1280x48_S256x48_1_0_0_1_n_n.lhsIdx (ix2 p q) ((contrEquiv1 dot_S256x1280_S1280x48_S256x48_1_0_0_1_n_n 1280 rfl rfl).symm k) = ix2 p k := funext fun a => Fin.ext (by
    match a with
    | ⟨0, _⟩ => exact mm_a_l0 _ _
    | ⟨1, _⟩ => exact (dot_S256x1280_S1280x48_S256x48_1_0_0_1_n_n.lhsIdx_val_of_single rfl _ _).trans hk)
  have er : dot_S256x1280_S1280x48_S256x48_1_0_0_1_n_n.rhsIdx (ix2 p q) ((contrEquiv1 dot_S256x1280_S1280x48_S256x48_1_0_0_1_n_n 1280 rfl rfl).symm k) = ix2 k q := funext fun a => Fin.ext (by
    match a with
    | ⟨0, _⟩ => exact (dot_S256x1280_S1280x48_S256x48_1_0_0_1_n_n.rhsIdx_val_of_single rfl _ _).trans hk
    | ⟨1, _⟩ => exact mm_a_r1 _ _)
  rw [el, er]

theorem mm_z_l0 (i : S256x3840.Idx) (q : dot_S256x48_S48x3840_S256x3840_1_0_0_1_n_n.contr.Idx) : (dot_S256x48_S48x3840_S256x3840_1_0_0_1_n_n.lhsIdx i q 0).val = (i 0).val := by
  unfold DotDims.lhsIdx
  rw [dif_neg (show ¬(0 : Fin S256x48.rank) ∈ dot_S256x48_S48x3840_S256x3840_1_0_0_1_n_n.lhsBatch by decide), dif_pos (show (0 : Fin S256x48.rank) ∈ dot_S256x48_S48x3840_S256x3840_1_0_0_1_n_n.lhsNonContracting by decide)]
  rfl
theorem mm_z_r1 (i : S256x3840.Idx) (q : dot_S256x48_S48x3840_S256x3840_1_0_0_1_n_n.contr.Idx) : (dot_S256x48_S48x3840_S256x3840_1_0_0_1_n_n.rhsIdx i q 1).val = (i 1).val := by
  unfold DotDims.rhsIdx
  rw [dif_neg (show ¬(1 : Fin S48x3840.rank) ∈ dot_S256x48_S48x3840_S256x3840_1_0_0_1_n_n.rhsBatch by decide), dif_pos (show (1 : Fin S48x3840.rank) ∈ dot_S256x48_S48x3840_S256x3840_1_0_0_1_n_n.rhsNonContracting by decide)]
  rfl
/-- The 48 projections against the block-diagonal matrix of right factors. -/
theorem mm_z {φ₁ φ₂ : FTy} (l : FVec Ideal S256x48 φ₁) (r : FVec Ideal S48x3840 φ₂) (p : Fin 256) (q : Fin 3840) :
    FloatOps.matmul (F := Ideal) dot_S256x48_S48x3840_S256x3840_1_0_0_1_n_n none l r (constant S256x3840 .f32 0x00000000#32) (ix2 p q)
      = ∑ k : Fin 48, l (ix2 p k) * r (ix2 k q) := by
  rw [Ideal.matmul_constant_zero_apply, ← Equiv.sum_comp (contrEquiv1 dot_S256x48_S48x3840_S256x3840_1_0_0_1_n_n 48 rfl rfl).symm]
  refine Finset.sum_congr rfl fun k _ => ?_
  have hk := contrEquiv1_symm_val dot_S256x48_S48x3840_S256x3840_1_0_0_1_n_n 48 rfl rfl k
  have el : dot_S256x48_S48x3840_S256x3840_1_0_0_1_n_n.lhsIdx (ix2 p q) ((contrEquiv1 dot_S256x48_S48x3840_S256x3840_1_0_0_1_n_n 48 rfl rfl).symm k) = ix2 p k := funext fun a => Fin.ext (by
    match a with
    | ⟨0, _⟩ => exact mm_z_l0 _ _
    | ⟨1, _⟩ => exact (dot_S256x48_S48x3840_S256x3840_1_0_0_1_n_n.lhsIdx_val_of_single rfl _ _).trans hk)
  have er : dot_S256x48_S48x3840_S256x3840_1_0_0_1_n_n.rhsIdx (ix2 p q) ((contrEquiv1 dot_S256x48_S48x3840_S256x3840_1_0_0_1_n_n 48 rfl rfl).symm k) = ix2 k q := funext fun a => Fin.ext (by
    match a with
    | ⟨0, _⟩ => exact (dot_S256x48_S48x3840_S256x3840_1_0_0_1_n_n.rhsIdx_val_of_single rfl _ _).trans hk
    | ⟨1, _⟩ => exact mm_z_r1 _ _)
  rw [el, er]

/-- The stored value at entry `(p, q)`. -/
theorem pay_apply (v0 : FVec Ideal S256x1280 .f32) (v3 : FVec Ideal S1280x3840 .bf16) (v6 : FVec Ideal S1x3840 .f32)
    (v10 : FVec Ideal S1280x48 .bf16) (v14 : FVec Ideal S48x3840 .bf16) (p : Fin 256) (q : Fin 3840) :
    k0_pay1 (F := Ideal) v0 v3 v6 v10 v14 (ix2 p q)
      = ((∑ k : Fin 1280, v0 (ix2 p k) * v3 (ix2 k q)) + v6 (ix2 (0 : Fin 1) q))
        + (∑ j : Fin 48, (∑ k : Fin 1280, v0 (ix2 p k) * v10 (ix2 k j)) * v14 (ix2 j q)) * one := by
  unfold k0_pay1
  simp only [shapeCast_self]
  show (FloatOps.matmul (F := Ideal) dot_S256x1280_S1280x3840_S256x3840_1_0_0_1_n_n none v0 v3 (constant S256x3840 .f32 0x00000000#32) (ix2 p q)
        + broadcastTo S256x3840 v6 broadcasts_S1x3840_S256x3840 (ix2 p q))
      + FloatOps.matmul (F := Ideal) dot_S256x48_S48x3840_S256x3840_1_0_0_1_n_n none
          (FloatOps.matmul (F := Ideal) dot_S256x1280_S1280x48_S256x48_1_0_0_1_n_n none v0 v10 (constant S256x48 .f32 0x00000000#32))
          v14 (constant S256x3840 .f32 0x00000000#32) (ix2 p q) * one = _
  rw [mm_w, mm_z, broadcastTo_1b_ab_apply]
  simp only [mm_a]

/-- The same with the operands' entries NAMED: whatever the five blocks are known to hold at the entries the value reads,
    the stored value at `(p, q)` is the formula over those. -/
theorem pay_apply_of (v0 : FVec Ideal S256x1280 .f32) (v3 : FVec Ideal S1280x3840 .bf16) (v6 : FVec Ideal S1x3840 .f32)
    (v10 : FVec Ideal S1280x48 .bf16) (v14 : FVec Ideal S48x3840 .bf16) (p : Fin 256) (q : Fin 3840)
    (X : Fin 1280 → EReal) (Wc : Fin 1280 → EReal) (bq : EReal) (Ac : Fin 1280 → Fin 48 → EReal) (Zc : Fin 48 → EReal)
    (h0 : ∀ k, v0 (ix2 p k) = X k) (h3 : ∀ k, v3 (ix2 k q) = Wc k) (h6 : v6 (ix2 (0 : Fin 1) q) = bq)
    (h10 : ∀ k j, v10 (ix2 k j) = Ac k j) (h14 : ∀ j, v14 (ix2 j q) = Zc j) :
    k0_pay1 (F := Ideal) v0 v3 v6 v10 v14 (ix2 p q)
      = ((∑ k : Fin 1280, X k * Wc k) + bq) + (∑ j : Fin 48, (∑ k : Fin 1280, X k * Ac k j) * Zc j) * one := by
  rw [pay_apply]
  simp only [h0, h3, h6, h10, h14]

end Cert.KernelIdeal.Payload

end
-- ==== Proof.KernelIdealValue.lean ====
/-
  From the tiles to the result. Tile `t` of the grid holds rows `256 t .. 256 t + 255` of the flattened input and writes
  rows `256 t .. 256 t + 255` of the flat 32768 x 3840 result; the four weight-like operands are the same whole arrays
  at every tile. So what tile `t` writes back is block `t` of ONE array, the specification's value with its three
  leading axes flattened; the 128 blocks cover that array (row `M` lies in tile `M / 256`); and the reshape after the
  region gives the specification's value itself. The step from a tile to the whole array: the windows' block indices decided over the grid, each block read
  where its window's rectangle says, the cover by arithmetic.
-/
import proofs.«127558_j25013889532113_2_alg».proof.Proof.KernelIdealFrame
import proofs.«127558_j25013889532113_2_alg».proof.Proof.KernelIdealHost
import proofs.«127558_j25013889532113_2_alg».proof.Proof.KernelIdealPayload
import proofs.«127558_j25013889532113_2_alg».proof.Proof.Spec
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Frame Cert.KernelIdeal.Host Cert.KernelIdeal.Payload Cert.Spec
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The specification's value of core `c`'s arguments. -/
def Gm (c : Dev nD) : (⟨S8x64x64x3840, .f32⟩ : BufTy).Contents (Elt Ideal) :=
  G (m ((c.tc : Thread nD τ).loc main_arg0)) (m ((c.tc : Thread nD τ).loc main_arg1)) (m ((c.tc : Thread nD τ).loc main_arg2)) (argA m c) (argB m c)

/-- The same with the three leading axes flattened: row `M = 4096 b + 64 h + w`. -/
def flat (c : Dev nD) : (⟨S32768x3840, .f32⟩ : BufTy).Contents (Elt Ideal) := fun i =>
  Gm m c (ix4 (⟨(i 0).val / 4096, by have : (i 0).val < 32768 := (i 0).isLt; omega⟩ : Fin 8)
    (⟨(i 0).val / 64 % 64, Nat.mod_lt _ (by decide)⟩ : Fin 64) (⟨(i 0).val % 64, Nat.mod_lt _ (by decide)⟩ : Fin 64)
    (⟨(i 1).val, (i 1).isLt⟩ : Fin 3840))

theorem flat_apply (c : Dev nD) (b : Fin 8) (h : Fin 64) (w : Fin 64) (o : Fin 3840) :
    flat m c (ix2 (rowOf b h w) o) = Gm m c (ix4 b h w o) := by
  unfold flat
  have e0 : (⟨((ix2 (rowOf b h w) o : S32768x3840.Idx) 0).val / 4096, by have : ((ix2 (rowOf b h w) o : S32768x3840.Idx) 0).val < 32768 := ((ix2 (rowOf b h w) o : S32768x3840.Idx) 0).isLt; omega⟩ : Fin 8) = b :=
    Fin.ext (by show ((b.val * 64 + h.val) * 64 + w.val) / 4096 = b.val; omega)
  have e1 : (⟨((ix2 (rowOf b h w) o : S32768x3840.Idx) 0).val / 64 % 64, Nat.mod_lt _ (by decide)⟩ : Fin 64) = h :=
    Fin.ext (by show ((b.val * 64 + h.val) * 64 + w.val) / 64 % 64 = h.val; omega)
  have e2 : (⟨((ix2 (rowOf b h w) o : S32768x3840.Idx) 0).val % 64, Nat.mod_lt _ (by decide)⟩ : Fin 64) = w :=
    Fin.ext (by show ((b.val * 64 + h.val) * 64 + w.val) % 64 = w.val; omega)
  rw [e0, e1, e2]

/-! ## The windows' index maps over the grid -/

theorem lt128 (t : Fin cfg0.N) : t.val < 128 := lt_of_lt_of_eq t.isLt N_0

/-- Row `256 t + p` of the flat arrays: place `p` of tile `t`. -/
abbrev tileRow (t : Fin cfg0.N) (p : Fin 256) : Fin 32768 := ⟨256 * t.val + p.val, by have := lt128 t; omega⟩

/-- The rows' window and the result's window sit at block `(t, 0)`; the four weight-like windows at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each block read where its window's rectangle says -/

/-- The rows' block at tile `t`: rows `256 t + p` of the flattened input. -/
theorem blk_rows (c : Dev nD) (t : Fin cfg0.N) (p : Fin 256) (k : Fin 1280) :
    iblk m c 0 t (ix2 p k) = shapeCast S32768x1280 (m ((c.tc : Thread nD τ).loc main_arg0)) shapeCasts_S8x64x64x1280_S32768x1280 (ix2 (tileRow t p) k) := by
  refine Eq.trans ?_ (congrFun (V_rows m c) (ix2 (tileRow t p) k))
  show V m c main_v0 (((cfg0.win 0).blk t).view.emb (ix2 p k)) = V m c main_v0 (ix2 (tileRow t p) k)
  obtain ⟨e00, e01, -⟩ := idx_facts t
  refine congrArg (V m c main_v0) (funext fun a => Fin.ext ?_)
  match a with
  | ⟨0, _⟩ => show win0_0.index t (0 : Fin 2) * 256 + 1 * p.val = 256 * t.val + p.val; omega
  | ⟨1, _⟩ => show win0_0.index t (1 : Fin 2) * 1280 + 1 * k.val = k.val; omega

/-- The weight's block is the whole transposed weight. -/
theorem blk_weight (c : Dev nD) (t : Fin cfg0.N) (k : Fin 1280) (q : Fin 3840) :
    iblk m c 1 t (ix2 k q) = tW (m ((c.tc : Thread nD τ).loc main_arg1)) (ix2 k q) := by
  refine Eq.trans ?_ (congrFun (V_weight m c) (ix2 k q))
  show V m c main_v2 (((cfg0.win 1).blk t).view.emb (ix2 k q)) = V m c main_v2 (ix2 k q)
  obtain ⟨-, -, e10, e11, -⟩ := idx_facts t
  refine congrArg (V m c main_v2) (funext fun a => Fin.ext ?_)
  match a with
  | ⟨0, _⟩ => show win0_1.index t (0 : Fin 2) * 1280 + 1 * k.val = k.val; omega
  | ⟨1, _⟩ => show win0_1.index t (1 : Fin 2) * 3840 + 1 * q.val = q.val; omega

/-- The bias's block is the whole one-row bias. -/
theorem blk_bias (c : Dev nD) (t : Fin cfg0.N) (u : Fin 1) (q : Fin 3840) :
    iblk m c 2 t (ix2 u q) = shapeCast S1x3840 (m ((c.tc : Thread nD τ).loc main_arg2)) shapeCasts_S3840_S1x3840 (ix2 u q) := by
  refine Eq.trans ?_ (congrFun (V_bias m c) (ix2 u q))
  show V m c main_v3 (((cfg0.win 2).blk t).view.emb (ix2 u q)) = V m c main_v3 (ix2 u q)
  obtain ⟨-, -, -, -, e20, e21, -⟩ := idx_facts t
  refine congrArg (V m c main_v3) (funext fun a => Fin.ext ?_)
  match a with
  | ⟨0, _⟩ => show win0_2.index t (0 : Fin 2) * 1 + 1 * u.val = u.val; omega
  | ⟨1, _⟩ => show win0_2.index t (1 : Fin 2) * 3840 + 1 * q.val = q.val; omega

/-- The left factors' block is the whole 1280 x 48 matrix. -/
theorem blk_left (c : Dev nD) (t : Fin cfg0.N) (k : Fin 1280) (j : Fin 48) :
    iblk m c 3 t (ix2 k j) = aAll (argA m c) (ix2 k j) := by
  refine Eq.trans ?_ (congrFun (V_left m c) (ix2 k j))
  show V m c main_v16 (((cfg0.win 3).blk t).view.emb (ix2 k j)) = V m c main_v16 (ix2 k j)
  obtain ⟨-, -, -, -, -, -, e30, e31, -⟩ := idx_facts t
  refine congrArg (V m c main_v16) (funext fun a => Fin.ext ?_)
  match a with
  | ⟨0, _⟩ => show win0_3.index t (0 : Fin 2) * 1280 + 1 * k.val = k.val; omega
  | ⟨1, _⟩ => show win0_3.index t (1 : Fin 2) * 48 + 1 * j.val = j.val; omega

/-- The right factors' block is the whole 48 x 3840 matrix. -/
theorem blk_right (c : Dev nD) (t : Fin cfg0.N) (j : Fin 48) (q : Fin 3840) :
    iblk m c 4 t (ix2 j q) = bAll (argB m c) (ix2 j q) := by
  refine Eq.trans ?_ (congrFun (V_right m c) (ix2 j q))
  show V m c main_v21 (((cfg0.win 4).blk t).view.emb (ix2 j q)) = V m c main_v21 (ix2 j q)
  obtain ⟨-, -, -, -, -, -, -, -, e40, e41, -⟩ := idx_facts t
  refine congrArg (V m c main_v21) (funext fun a => Fin.ext ?_)
  match a with
  | ⟨0, _⟩ => show win0_4.index t (0 : Fin 2) * 48 + 1 * j.val = j.val; omega
  | ⟨1, _⟩ => show win0_4.index t (1 : Fin 2) * 3840 + 1 * q.val = q.val; omega

/-- Block `t` of a flat result array: rows `256 t + p`. -/
theorem blk_out (t : Fin cfg0.N) (K : (⟨S32768x3840, .f32⟩ : BufTy).Contents (Elt Ideal)) (p : Fin 256) (q : Fin 3840) :
    ((cfg0.win 5).blk t).view.read (Elt Ideal) K (ix2 p q) = K (ix2 (tileRow t p) q) := by
  show K (((cfg0.win 5).blk t).view.emb (ix2 p q)) = K (ix2 (tileRow t p) q)
  obtain ⟨-, -, -, -, -, -, -, -, -, -, e50, e51⟩ := idx_facts t
  refine congrArg K (funext fun a => Fin.ext ?_)
  match a with
  | ⟨0, _⟩ => show win0_5.index t (0 : Fin 2) * 256 + 1 * p.val = 256 * t.val + p.val; omega
  | ⟨1, _⟩ => show win0_5.index t (1 : Fin 2) * 3840 + 1 * q.val = q.val; omega

/-! ## What a tile writes back, and the whole array -/

theorem hz : (![0, 0] : Fin 2 → Nat) = fun _ => 0 := funext fun a => by fin_cases a <;> rfl

/-- What tile `t` writes back is block `t` of the flat specification. -/
theorem flushed_eq (c : Dev nD) (t : Fin cfg0.N) :
    (dats m 0 c).flushed 5 t = ((cfg0.win 5).blk t).view.read (Elt Ideal) (flat m c) := by
  show (cfg0.win 5).cut (grid0.coords t) ((dats m 0 c).after 5 t) = _
  rw [after0_5]
  unfold out0_5
  rw [View.canon_unit_zero hz]
  simp only [View.ld_unit_zero (S := S256x1280) hz, View.ld_unit_zero (S := S1280x3840) hz, View.ld_unit_zero (S := S1x3840) hz,
    View.ld_unit_zero (S := S1280x48) hz, View.ld_unit_zero (S := S48x3840) hz]
  funext y
  obtain ⟨p, q, rfl⟩ : ∃ (p : Fin 256) (q : Fin 3840), y = ix2 p q := ⟨y 0, y 1, eq_ix2 y⟩
  rw [blk_out]
  show k0_pay1 (F := Ideal) (iblk m c 0 t) (iblk m c 1 t) (iblk m c 2 t) (iblk m c 3 t) (iblk m c 4 t) (ix2 p q) = _
  obtain ⟨b, h, w, hM⟩ := exists_row (tileRow t p)
  obtain ⟨g, d, rfl⟩ := exists_col q
  refine (pay_apply_of (iblk m c 0 t) (iblk m c 1 t) (iblk m c 2 t) (iblk m c 3 t) (iblk m c 4 t) p (col g d)
    (fun k => shapeCast S32768x1280 (m ((c.tc : Thread nD τ).loc main_arg0)) shapeCasts_S8x64x64x1280_S32768x1280 (ix2 (rowOf b h w) k))
    (fun k => tW (m ((c.tc : Thread nD τ).loc main_arg1)) (ix2 k (col g d)))
    (shapeCast S1x3840 (m ((c.tc : Thread nD τ).loc main_arg2)) shapeCasts_S3840_S1x3840 (ix2 (0 : Fin 1) (col g d)))
    (fun k j => aAll (argA m c) (ix2 k j))
    (fun j => bAll (argB m c) (ix2 j (col g d)))
    (fun k => by rw [blk_rows, hM]) (fun k => blk_weight m c t k (col g d)) (blk_bias m c t 0 (col g d))
    (fun k j => blk_left m c t k j) (fun j => blk_right m c t j (col g d))).trans ?_
  rw [hM, flat_apply]
  unfold Gm
  rw [G_apply]
  exact entry _ _ _ _ _ b h w g d

/-- An index is in tile `t`'s block iff each coordinate is in the block's range. -/
theorem mem_blk (t : Fin cfg0.N) (i : S32768x3840.Idx) :
    i ∈ ((cfg0.win 5).blk t).view.set ↔ ∀ a : Fin 2, win0_5.index t a * S256x3840.size a ≤ (i a).val ∧ (i a).val < win0_5.index t a * S256x3840.size a + S256x3840.size a := by
  show i ∈ ((View.whole main_v22).slice (win0_5.rect t)).set ↔ _
  rw [View.set_slice_whole, Rect.mem_set_unit]
  exact Iff.rfl

/-- Every index of the flat result is in some tile's block: row `M` is in tile `M / 256`. -/
theorem cover (i : S32768x3840.Idx) : ∃ t : Fin cfg0.N, (cfg0.win 5).flush t = true ∧ i ∈ ((cfg0.win 5).blk t).view.set := by
  have hi0 : (i 0).val < 32768 := (i 0).isLt
  have hi1 : (i 1).val < 3840 := (i 1).isLt
  have hN : cfg0.N = 128 := N_0
  refine ⟨⟨(i 0).val / 256, by rw [hN]; omega⟩, flush0_5 _, ?_⟩
  rw [mem_blk]
  obtain ⟨-, -, -, -, -, -, -, -, -, -, e50, e51⟩ := idx_facts ⟨(i 0).val / 256, by rw [hN]; omega⟩
  intro a
  match a with
  | ⟨0, _⟩ =>
    show win0_5.index ⟨(i 0).val / 256, _⟩ (0 : Fin 2) * 256 ≤ (i 0).val ∧ (i 0).val < win0_5.index ⟨(i 0).val / 256, _⟩ (0 : Fin 2) * 256 + 256
    rw [e50]
    show (i 0).val / 256 * 256 ≤ (i 0).val ∧ (i 0).val < (i 0).val / 256 * 256 + 256
    omega
  | ⟨1, _⟩ =>
    show win0_5.index ⟨(i 0).val / 256, _⟩ (1 : Fin 2) * 3840 ≤ (i 1).val ∧ (i 1).val < win0_5.index ⟨(i 0).val / 256, _⟩ (1 : Fin 2) * 3840 + 3840
    rw [e51]
    omega

/-- The flat result array after the run is the flat specification. -/
theorem final (c : Dev nD) : (dats m 0 c).arrAt 5 cfg0.N = flat m c :=
  (dats m 0 c).arrAt_eq_of_cover 5 (flat m c) (fun t _ => flushed_eq m c t) cover

/-! ## Through the reshape after the region -/

/-- The result buffer after the final reshape is the specification's value of the arguments. -/
theorem result (c : Dev nD) :
    (Pipeline.afterTail₀ cfgs (dats m) 0 (V0 m) [hostOps1] c main_v23 : (⟨S8x64x64x3840, .f32⟩ : BufTy).Contents (Elt Ideal)) = Gm m c := by
  unfold Pipeline.afterTail₀
  show StableHlo.after hostOps1 _ (Proc.devRef .tc main_v23) = _
  after_results
  have hw := (Pipeline.withArrays_arr spec0 launch0.win.arr_inj c (V0 m c) (fun w => (dats m 0 c).arrAt w cfg0.N) 5).trans (final m c)
  funext i
  obtain ⟨b, h, w, o, rfl⟩ : ∃ (b : Fin 8) (h : Fin 64) (w : Fin 64) (o : Fin 3840), i = ix4 b h w o := ⟨i 0, i 1, i 2, i 3, eq_ix4 i⟩
  show shapeCast S8x64x64x3840 (Pipeline.withArrays spec0 c (V0 m c) (fun w => (dats m 0 c).arrAt w cfg0.N) (Proc.devRef .tc main_v22))
    shapeCasts_S32768x3840_S8x64x64x3840 (ix4 b h w o) = _
  rw [unflat_apply]
  exact (congrFun hw (ix2 (rowOf b h w) o)).trans (flat_apply m c b h w o)

/-- THE KERNEL'S RUN, READ: every weakly fair execution ends, nothing faulting, with the result buffer at the
    specification's value of the arguments and the nine arguments as launched. -/
theorem run : θ_run defs (onTc (τ := τ) (main (F := Ideal))) ⟨m, fun _ => 0, ρ⟩ fun r => ∀ c : Dev nD,
      r.2.mem ((c.tc : Thread nD τ).loc main_v23) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v23 (Pipeline.mem_restRefs_of main_v23 (by decide) (by decide))).trans (result m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c)⟩)
    (run_main m ρ)

end Cert.KernelIdeal.Result

end
-- ==== Proof.RefValue.lean ====
/-
  The reference, index by index, is the specification. The reference computes the base product and bias for all 3840
  columns, cuts it into three 1280-wide thirds, adds to each third the low-rank update of its own factor pair (two
  successive products, scaled by the literal `1`), and lays the thirds side by side again. Column `1280 g + d` of the
  result is therefore place `d` of third `g`, which is the specification's value there.
-/
import proofs.«127558_j25013889532113_2_alg».proof.Proof.Gen.ReferenceIdeal.Read
import proofs.«127558_j25013889532113_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read Cert.Spec
open Idealize.ShloMosaic Idealize.ShloMosaic.ValueIdx

/-- Group 0: the reference's third of the result at `(b, h, w, d)`. -/
theorem third0 (x0 : (⟨S8x64x64x1280, .f32⟩ : BufTy).Contents (Elt Ideal)) (x1 : (⟨S3840x1280, .f32⟩ : BufTy).Contents (Elt Ideal))
    (x2 : (⟨S3840, .f32⟩ : BufTy).Contents (Elt Ideal)) (As : Fin 3 → (⟨S16x1280, .f32⟩ : BufTy).Contents (Elt Ideal))
    (Bs : Fin 3 → (⟨S1280x16, .f32⟩ : BufTy).Contents (Elt Ideal)) (b : Fin 8) (h : Fin 64) (w : Fin 64) (d : Fin 1280) :
    val_main_v9 (F := Ideal) x0 x1 x2 (As 0) (Bs 0) (ix4 b h w d) = part x0 x1 x2 As Bs 0 b h w d := by
  rw [val_main_v9_apply, val_main_v4_apply, val_main_v3_apply, val_main_v0_apply, val_main_v2_apply, val_main_v1_apply,
    val_main_v8_apply, val_main_v6_apply, val_main_v7_apply, val_main_cst_apply]
  simp only [val_main_v5_apply]
  unfold part
  have e0 : ∀ k : Fin 1280, lidx_main_v0 (idx_main_v4 (ix4 b h w d)) k = ix4 b h w k := fun k => funext fun a => Fin.ext (by
    match a with
    | ⟨0, _⟩ => rfl
    | ⟨1, _⟩ => rfl
    | ⟨2, _⟩ => rfl
    | ⟨3, _⟩ => rfl)
  have e1 : ∀ k : Fin 1280, ridx_main_v0 (idx_main_v4 (ix4 b h w d)) k = ix2 (col 0 d) k := fun k => funext fun a => Fin.ext (by
    match a with
    | ⟨0, _⟩ => show _ = d.val + 1280 * (0 : Fin 3).val; first | rfl | exact Nat.add_comm _ _
    | ⟨1, _⟩ => rfl)
  have e2 : idx_main_v1 (idx_main_v2 (idx_main_v4 (ix4 b h w d))) = ix1 (col 0 d) := funext fun a => Fin.ext (by
    match a with
    | ⟨0, _⟩ => show _ = d.val + 1280 * (0 : Fin 3).val; first | rfl | exact Nat.add_comm _ _)
  have e3 : ∀ (r : Fin 16) (k : Fin 1280), lidx_main_v5 (lidx_main_v6 (ix4 b h w d) r) k = ix4 b h w k := fun r k => funext fun a => Fin.ext (by
    match a with
    | ⟨0, _⟩ => rfl
    | ⟨1, _⟩ => rfl
    | ⟨2, _⟩ => rfl
    | ⟨3, _⟩ => rfl)
  have e4 : ∀ (r : Fin 16) (k : Fin 1280), ridx_main_v5 (lidx_main_v6 (ix4 b h w d) r) k = ix2 r k := fun r k => funext fun a => Fin.ext (by
    match a with
    | ⟨0, _⟩ => rfl
    | ⟨1, _⟩ => rfl)
  have e5 : ∀ r : Fin 16, ridx_main_v6 (ix4 b h w d) r = ix2 d r := fun r => funext fun a => Fin.ext (by
    match a with
    | ⟨0, _⟩ => rfl
    | ⟨1, _⟩ => rfl)
  simp only [e0, e1, e2, e3, e4, e5]
  rfl

/-- Group 1: the reference's third of the result at `(b, h, w, d)`. -/
theorem third1 (x0 : (⟨S8x64x64x1280, .f32⟩ : BufTy).Contents (Elt Ideal)) (x1 : (⟨S3840x1280, .f32⟩ : BufTy).Contents (Elt Ideal))
    (x2 : (⟨S3840, .f32⟩ : BufTy).Contents (Elt Ideal)) (As : Fin 3 → (⟨S16x1280, .f32⟩ : BufTy).Contents (Elt Ideal))
    (Bs : Fin 3 → (⟨S1280x16, .f32⟩ : BufTy).Contents (Elt Ideal)) (b : Fin 8) (h : Fin 64) (w : Fin 64) (d : Fin 1280) :
    val_main_v15 (F := Ideal) x0 x1 x2 (As 1) (Bs 1) (ix4 b h w d) = part x0 x1 x2 As Bs 1 b h w d := by
  rw [val_main_v15_apply, val_main_v10_apply, val_main_v3_apply, val_main_v0_apply, val_main_v2_apply, val_main_v1_apply,
    val_main_v14_apply, val_main_v12_apply, val_main_v13_apply, val_main_cst_0_apply]
  simp only [val_main_v11_apply]
  unfold part
  have e0 : ∀ k : Fin 1280, lidx_main_v0 (idx_main_v10 (ix4 b h w d)) k = ix4 b h w k := fun k => funext fun a => Fin.ext (by
    match a with
    | ⟨0, _⟩ => rfl
    | ⟨1, _⟩ => rfl
    | ⟨2, _⟩ => rfl
    | ⟨3, _⟩ => rfl)
  have e1 : ∀ k : Fin 1280, ridx_main_v0 (idx_main_v10 (ix4 b h w d)) k = ix2 (col 1 d) k := fun k => funext fun a => Fin.ext (by
    match a with
    | ⟨0, _⟩ => show _ = d.val + 1280 * (1 : Fin 3).val; first | rfl | exact Nat.add_comm _ _
    | ⟨1, _⟩ => rfl)
  have e2 : idx_main_v1 (idx_main_v2 (idx_main_v10 (ix4 b h w d))) = ix1 (col 1 d) := funext fun a => Fin.ext (by
    match a with
    | ⟨0, _⟩ => show _ = d.val + 1280 * (1 : Fin 3).val; first | rfl | exact Nat.add_comm _ _)
  have e3 : ∀ (r : Fin 16) (k : Fin 1280), lidx_main_v11 (lidx_main_v12 (ix4 b h w d) r) k = ix4 b h w k := fun r k => funext fun a => Fin.ext (by
    match a with
    | ⟨0, _⟩ => rfl
    | ⟨1, _⟩ => rfl
    | ⟨2, _⟩ => rfl
    | ⟨3, _⟩ => rfl)
  have e4 : ∀ (r : Fin 16) (k : Fin 1280), ridx_main_v11 (lidx_main_v12 (ix4 b h w d) r) k = ix2 r k := fun r k => funext fun a => Fin.ext (by
    match a with
    | ⟨0, _⟩ => rfl
    | ⟨1, _⟩ => rfl)
  have e5 : ∀ r : Fin 16, ridx_main_v12 (ix4 b h w d) r = ix2 d r := fun r => funext fun a => Fin.ext (by
    match a with
    | ⟨0, _⟩ => rfl
    | ⟨1, _⟩ => rfl)
  simp only [e0, e1, e2, e3, e4, e5]
  rfl

/-- Group 2: the reference's third of the result at `(b, h, w, d)`. -/
theorem third2 (x0 : (⟨S8x64x64x1280, .f32⟩ : BufTy).Contents (Elt Ideal)) (x1 : (⟨S3840x1280, .f32⟩ : BufTy).Contents (Elt Ideal))
    (x2 : (⟨S3840, .f32⟩ : BufTy).Contents (Elt Ideal)) (As : Fin 3 → (⟨S16x1280, .f32⟩ : BufTy).Contents (Elt Ideal))
    (Bs : Fin 3 → (⟨S1280x16, .f32⟩ : BufTy).Contents (Elt Ideal)) (b : Fin 8) (h : Fin 64) (w : Fin 64) (d : Fin 1280) :
    val_main_v21 (F := Ideal) x0 x1 x2 (As 2) (Bs 2) (ix4 b h w d) = part x0 x1 x2 As Bs 2 b h w d := by
  rw [val_main_v21_apply, val_main_v16_apply, val_main_v3_apply, val_main_v0_apply, val_main_v2_apply, val_main_v1_apply,
    val_main_v20_apply, val_main_v18_apply, val_main_v19_apply, val_main_cst_1_apply]
  simp only [val_main_v17_apply]
  unfold part
  have e0 : ∀ k : Fin 1280, lidx_main_v0 (idx_main_v16 (ix4 b h w d)) k = ix4 b h w k := fun k => funext fun a => Fin.ext (by
    match a with
    | ⟨0, _⟩ => rfl
    | ⟨1, _⟩ => rfl
    | ⟨2, _⟩ => rfl
    | ⟨3, _⟩ => rfl)
  have e1 : ∀ k : Fin 1280, ridx_main_v0 (idx_main_v16 (ix4 b h w d)) k = ix2 (col 2 d) k := fun k => funext fun a => Fin.ext (by
    match a with
    | ⟨0, _⟩ => show _ = d.val + 1280 * (2 : Fin 3).val; first | rfl | exact Nat.add_comm _ _
    | ⟨1, _⟩ => rfl)
  have e2 : idx_main_v1 (idx_main_v2 (idx_main_v16 (ix4 b h w d))) = ix1 (col 2 d) := funext fun a => Fin.ext (by
    match a with
    | ⟨0, _⟩ => show _ = d.val + 1280 * (2 : Fin 3).val; first | rfl | exact Nat.add_comm _ _)
  have e3 : ∀ (r : Fin 16) (k : Fin 1280), lidx_main_v17 (lidx_main_v18 (ix4 b h w d) r) k = ix4 b h w k := fun r k => funext fun a => Fin.ext (by
    match a with
    | ⟨0, _⟩ => rfl
    | ⟨1, _⟩ => rfl
    | ⟨2, _⟩ => rfl
    | ⟨3, _⟩ => rfl)
  have e4 : ∀ (r : Fin 16) (k : Fin 1280), ridx_main_v17 (lidx_main_v18 (ix4 b h w d) r) k = ix2 r k := fun r k => funext fun a => Fin.ext (by
    match a with
    | ⟨0, _⟩ => rfl
    | ⟨1, _⟩ => rfl)
  have e5 : ∀ r : Fin 16, ridx_main_v18 (ix4 b h w d) r = ix2 d r := fun r => funext fun a => Fin.ext (by
    match a with
    | ⟨0, _⟩ => rfl
    | ⟨1, _⟩ => rfl)
  simp only [e0, e1, e2, e3, e4, e5]
  rfl

/-- The reference's result is `G` of its arguments. -/
theorem result_eq (x0 : (⟨S8x64x64x1280, .f32⟩ : BufTy).Contents (Elt Ideal)) (x1 : (⟨S3840x1280, .f32⟩ : BufTy).Contents (Elt Ideal))
    (x2 : (⟨S3840, .f32⟩ : BufTy).Contents (Elt Ideal))
    (x3 : (⟨S16x1280, .f32⟩ : BufTy).Contents (Elt Ideal)) (x4 : (⟨S1280x16, .f32⟩ : BufTy).Contents (Elt Ideal))
    (x5 : (⟨S16x1280, .f32⟩ : BufTy).Contents (Elt Ideal)) (x6 : (⟨S1280x16, .f32⟩ : BufTy).Contents (Elt Ideal))
    (x7 : (⟨S16x1280, .f32⟩ : BufTy).Contents (Elt Ideal)) (x8 : (⟨S1280x16, .f32⟩ : BufTy).Contents (Elt Ideal)) :
    val_main_v22 (F := Ideal) x0 x1 x2 x3 x4 x5 x6 x7 x8 = G x0 x1 x2 (fam3 x3 x5 x7) (fam3 x4 x6 x8) := by
  funext i
  obtain ⟨b, h, w, o, rfl⟩ : ∃ (b : Fin 8) (h : Fin 64) (w : Fin 64) (o : Fin 3840), i = ix4 b h w o := ⟨i 0, i 1, i 2, i 3, eq_ix4 i⟩
  obtain ⟨g, d, rfl⟩ := exists_col o
  rw [G_apply]
  unfold val_main_v22
  refine (concatenate_ofFn_apply (t := S8x64x64x3840) (s₁ := S8x64x64x1280) 3
    (fam3 (val_main_v9 (F := Ideal) x0 x1 x2 x3 x4) (val_main_v15 (F := Ideal) x0 x1 x2 x5 x6) (val_main_v21 (F := Ideal) x0 x1 x2 x7 x8))
    _ rfl 1280 rfl (ix4 b h w (col g d)) g (col_div g d) (ix4 b h w d) (col_mod g d).symm
    (fun a ha => by
      match a with
      | ⟨0, _⟩ => rfl
      | ⟨1, _⟩ => rfl
      | ⟨2, _⟩ => rfl
      | ⟨3, _⟩ => exact absurd rfl ha)).trans ?_
  match g with
  | 0 => exact third0 x0 x1 x2 (fam3 x3 x5 x7) (fam3 x4 x6 x8) b h w d
  | 1 => exact third1 x0 x1 x2 (fam3 x3 x5 x7) (fam3 x4 x6 x8) b h w d
  | 2 => exact third2 x0 x1 x2 (fam3 x3 x5 x7) (fam3 x4 x6 x8) b h w d

end Cert.ReferenceIdeal.RefValue

end
-- ==== Proof.lean ====
/-
  A fused low-rank-adapted query/key/value projection against its reference, over the extended reals.

  For an input `x` of shape 8 x 64 x 64 x 1280, a weight `W` (3840 x 1280), a bias (3840) and three factor pairs
  `A_g` (16 x 1280), `B_g` (1280 x 16), both programs compute, at row `(b, h, w)` and column `1280 g + d`,
      (∑ k, x (b, h, w, k) · W (1280 g + d, k) + bias (1280 g + d)) + (∑ r, (∑ k, x (b, h, w, k) · A_g (r, k)) · B_g (d, r)) · 1.
  The reference does so literally, one group at a time. The kernel flattens the rows, works on 128 tiles of 256 rows,
  and fuses the three groups: ONE product against the three `A_g` side by side (48 columns) and ONE product against a
  48 x 3840 matrix with the three `B_g` on its block diagonal and zeros elsewhere. Its low-rank sum therefore has 48
  terms, of which the 32 outside group `g` are a number times `0`; on the extended reals a product with `0` is `0`
  whatever the other factor, so the sum is the 16 terms of group `g`, with no use of finiteness. Changes of float format
  are the identity there, and a matrix product into a zero accumulator is the plain sum.

  The three frames: each kernel program ends, faults nowhere and leaves its nine arguments as launched (the run of @main
  around its one region); the reference's frame is its run with the result dropped. The ideal pass rewrote nothing, so
  the idealization claim is trivial.
-/
import proofs.«127558_j25013889532113_2_alg».proof.Defs
import proofs.«127558_j25013889532113_2_alg».proof.Proof.Gen.Kernel
import proofs.«127558_j25013889532113_2_alg».proof.Proof.Gen.KernelIdeal
import proofs.«127558_j25013889532113_2_alg».proof.Proof.Gen.ReferenceIdeal
import proofs.«127558_j25013889532113_2_alg».proof.Proof.Gen.Pre_finite_inputs
import proofs.«127558_j25013889532113_2_alg».proof.Proof.Gen.ReferenceIdeal.Run
import proofs.«127558_j25013889532113_2_alg».proof.Proof.Gen.ReferenceIdeal.Read
import proofs.«127558_j25013889532113_2_alg».proof.Proof.KernelFrame
import proofs.«127558_j25013889532113_2_alg».proof.Proof.KernelIdealFrame
import proofs.«127558_j25013889532113_2_alg».proof.Proof.KernelIdealValue
import proofs.«127558_j25013889532113_2_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Frame.frame m ρ
/-- So does its idealization. -/
theorem frame_ki : Cert.frame_KernelIdeal := fun m ρ _ => Cert.KernelIdeal.Frame.frame m ρ
/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the nine arguments, the kernel's result buffer ends at the specification's value of them
    and so does the reference's: one function of the arguments. -/
theorem algebraic : Cert.algebraic_KernelIdeal_ReferenceIdeal := by
  intro m ρ m' ρ' _ hagree
  refine ⟨fun c => Cert.KernelIdeal.Result.Gm m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v22_eq, Cert.ReferenceIdeal.RefValue.result_eq, a0, a1, a2, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
